-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x84 : Shape := ⟨3, ![8, 32768, 84]⟩
abbrev S8x32768x21 : Shape := ⟨3, ![8, 32768, 21]⟩
abbrev S_ : Shape := ⟨0, ![]⟩

class Facts : Prop where
  bcast_S_S8x32768x84 : S_.BroadcastsInDim S8x32768x84 (![] : Fin 0 → Fin S8x32768x84.rank)
  reducesTo_S8x32768x84_S_d0_1_2 : S8x32768x84.ReducesTo [0, 1, 2] S_
  h_S_ : 0 < S_.numel
  bcast_S_S8x32768x21 : S_.BroadcastsInDim S8x32768x21 (![] : Fin 0 → Fin S8x32768x21.rank)
  reducesTo_S8x32768x21_S_d0_1_2 : S8x32768x21.ReducesTo [0, 1, 2] S_

variable [Facts]

def fn_part1 {F : FTy → Type} [FloatOps F] (main_v13 : IVec S_ 1) (main_v16 : IVec S8x32768x21 1) : IVec S_ 1 :=
  let main_c_5 : IVec S_ 1 := constantI S_ 1 1#1
  let main_v17 : IVec S_ 1 := (fun x v => Host.reduce IntOp.andi x v reducesTo_S8x32768x21_S_d0_1_2 h_S_) main_v16 main_c_5
  let main_v18 : IVec S_ 1 := andi main_v13 main_v17
  main_v18

def fn {F : FTy → Type} [FloatOps F] (main_arg0 : FVec F S8x32768x84 .f32) (main_arg1 : FVec F S8x32768x21 .f32) (main_arg2 : FVec F S8x32768x84 .f32) (main_arg3 : FVec F S8x32768x21 .f32) : IVec S_ 1 :=
  let main_v0 : FVec F S8x32768x84 .f32 := Host.absf main_arg0
  let main_cst : FVec F S_ .f32 := constant S_ .f32 0x7F800000#32
  let main_v1 : FVec F S8x32768x84 .f32 := broadcastInDim S8x32768x84 ![] bcast_S_S8x32768x84 main_cst
  let main_v2 : IVec S8x32768x84 1 := cmpf .olt main_v0 main_v1
  let main_c : IVec S_ 1 := constantI S_ 1 1#1
  let main_v3 : IVec S_ 1 := (fun x v => Host.reduce IntOp.andi x v reducesTo_S8x32768x84_S_d0_1_2 h_S_) main_v2 main_c
  let main_v4 : FVec F S8x32768x21 .f32 := Host.absf main_arg1
  let main_cst_0 : FVec F S_ .f32 := constant S_ .f32 0x7F800000#32
  let main_v5 : FVec F S8x32768x21 .f32 := broadcastInDim S8x32768x21 ![] bcast_S_S8x32768x21 main_cst_0
  let main_v6 : IVec S8x32768x21 1 := cmpf .olt main_v4 main_v5
  let main_c_1 : IVec S_ 1 := constantI S_ 1 1#1
  let main_v7 : IVec S_ 1 := (fun x v => Host.reduce IntOp.andi x v reducesTo_S8x32768x21_S_d0_1_2 h_S_) main_v6 main_c_1
  let main_v8 : IVec S_ 1 := andi main_v3 main_v7
  let main_v9 : FVec F S8x32768x84 .f32 := Host.absf main_arg2
  let main_cst_2 : FVec F S_ .f32 := constant S_ .f32 0x7F800000#32
  let main_v10 : FVec F S8x32768x84 .f32 := broadcastInDim S8x32768x84 ![] bcast_S_S8x32768x84 main_cst_2
  let main_v11 : IVec S8x32768x84 1 := cmpf .olt main_v9 main_v10
  let main_c_3 : IVec S_ 1 := constantI S_ 1 1#1
  let main_v12 : IVec S_ 1 := (fun x v => Host.reduce IntOp.andi x v reducesTo_S8x32768x84_S_d0_1_2 h_S_) main_v11 main_c_3
  let main_v13 : IVec S_ 1 := andi main_v8 main_v12
  let main_v14 : FVec F S8x32768x21 .f32 := Host.absf main_arg3
  let main_cst_4 : FVec F S_ .f32 := constant S_ .f32 0x7F800000#32
  let main_v15 : FVec F S8x32768x21 .f32 := broadcastInDim S8x32768x21 ![] bcast_S_S8x32768x21 main_cst_4
  let main_v16 : IVec S8x32768x21 1 := cmpf .olt main_v14 main_v15
  fn_part1 (F := F) main_v13 main_v16
-- ==== Kernel.lean ====
abbrev S8x32768x84 : Shape := ⟨3, ![8, 32768, 84]⟩
abbrev S8x32768x21 : Shape := ⟨3, ![8, 32768, 21]⟩
abbrev S20x80 : Shape := ⟨2, ![20, 80]⟩
abbrev S262144x21 : Shape := ⟨2, ![262144, 21]⟩
abbrev S262144x84 : Shape := ⟨2, ![262144, 84]⟩
abbrev S1x1 : Shape := ⟨2, ![1, 1]⟩
abbrev S2048x21 : Shape := ⟨2, ![2048, 21]⟩
abbrev S2048x84 : Shape := ⟨2, ![2048, 84]⟩
abbrev S2048 : Shape := ⟨1, ![2048]⟩
abbrev S2048x1 : Shape := ⟨2, ![2048, 1]⟩
abbrev S1 : Shape := ⟨1, ![1]⟩
abbrev S2048x20 : Shape := ⟨2, ![2048, 20]⟩
abbrev S2048x80 : Shape := ⟨2, ![2048, 80]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S8x32768x84, .f32⟩
  | .hbm, ⟨1, _⟩ => ⟨S8x32768x21, .f32⟩
  | .hbm, ⟨2, _⟩ => ⟨S8x32768x84, .f32⟩
  | .hbm, ⟨3, _⟩ => ⟨S8x32768x21, .f32⟩
  | .hbm, ⟨4, _⟩ => ⟨S20x80, .f32⟩
  | .hbm, ⟨5, _⟩ => ⟨S262144x21, .f32⟩
  | .hbm, ⟨6, _⟩ => ⟨S262144x21, .f32⟩
  | .hbm, ⟨7, _⟩ => ⟨S262144x84, .f32⟩
  | .hbm, ⟨8, _⟩ => ⟨S262144x84, .f32⟩
  | .hbm, ⟨9, _⟩ => ⟨S1x1, .f32⟩
  | .hbm, ⟨10, _⟩ => ⟨S_, .f32⟩
  | .local _ .vmem, ⟨0, _⟩ => ⟨S2048x21, .f32⟩
  | .local _ .vmem, ⟨1, _⟩ => ⟨S2048x21, .f32⟩
  | .local _ .vmem, ⟨2, _⟩ => ⟨S2048x21, .f32⟩
  | .local _ .vmem, ⟨3, _⟩ => ⟨S2048x21, .f32⟩
  | .local _ .vmem, ⟨4, _⟩ => ⟨S2048x84, .f32⟩
  | .local _ .vmem, ⟨5, _⟩ => ⟨S2048x84, .f32⟩
  | .local _ .vmem, ⟨6, _⟩ => ⟨S2048x84, .f32⟩
  | .local _ .vmem, ⟨7, _⟩ => ⟨S2048x84, .f32⟩
  | .local _ .vmem, ⟨8, _⟩ => ⟨S20x80, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S8x32768x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v76 : BitVec 1 := Scalar.cmpi .eq arg0 c127_i32
  let v77 : BitVec 32 := Scalar.extui v76
  let c0_i32_37 : BitVec 32 := 0#32
  let v78 : BitVec 1 := Scalar.cmpi .ne v77 c0_i32_37
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x84 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x84 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S8x32768x21_S262144x21 : S8x32768x21.ShapeCasts S262144x21
  shapeCasts_S8x32768x84_S262144x84 : S8x32768x84.ShapeCasts S262144x84
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x21_S2048x21_0_0 : ∀ a, (![0, 0] : Fin 2 → Nat) a + S2048x21.size a ≤ S2048x21.size a
  h_S2048x21 : 0 < S2048x21.numel
  shapeCasts_S2048x21_S2048x21 : S2048x21.ShapeCasts S2048x21
  inb_S2048x84_S2048x84_0_0 : ∀ a, (![0, 0] : Fin 2 → Nat) a + S2048x84.size a ≤ S2048x84.size a
  h_S2048x84 : 0 < S2048x84.numel
  shapeCasts_S2048x84_S2048x84 : S2048x84.ShapeCasts S2048x84
  reduces_S2048x21_S2048 : S2048x21.Reduces [1] S2048
  shapeCasts_S2048_S2048x1 : S2048.ShapeCasts S2048x1
  broadcasts_S2048x1_S2048x21 : S2048x1.Broadcasts S2048x21
  reduces_S2048x1_S1 : S2048x1.Reduces [0] S1
  shapeCasts_S1_S1x1 : S1.ShapeCasts S1x1
  slices_S2048x21_o0_1_S2048x20 : S2048x21.Slices ![0, 1] S2048x20
  natLt_1_32 : 1 < 32
  bitsLt_bf16_f32 : FTy.bits .bf16 < FTy.bits .f32
  inb_S20x80_S20x80_0_0 : ∀ a, (![0, 0] : Fin 2 → Nat) a + S20x80.size a ≤ S20x80.size a
  h_S20x80 : 0 < S20x80.numel
  slices_S2048x84_o0_4_S2048x80 : S2048x84.Slices ![0, 4] S2048x80
  reduces_S2048x80_S2048 : S2048x80.Reduces [1] S2048
  shapeCasts_S1x1_S_ : S1x1.ShapeCasts S_
  dot_S2048x20_S20x80_S2048x80_1_0_0_1_n_n_wf : DotDims.WF S2048x20 S20x80 S2048x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x21.size a ≤ S262144x21.size a
  hwx0_0 : ∀ i : grid0.Coords, EltTy.bits .f32 = 32 ∨ (Rect.block (s := S262144x21) S2048x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x21.size a ≤ S262144x21.size a
  hwx0_1 : ∀ i : grid0.Coords, EltTy.bits .f32 = 32 ∨ (Rect.block (s := S262144x21) S2048x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x84.size a ≤ S262144x84.size a
  hwx0_2 : ∀ i : grid0.Coords, EltTy.bits .f32 = 32 ∨ (Rect.block (s := S262144x84) S2048x84.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x84.size a ≤ S262144x84.size a
  hwx0_3 : ∀ i : grid0.Coords, EltTy.bits .f32 = 32 ∨ (Rect.block (s := S262144x84) S2048x84.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x80.size a ≤ S20x80.size a
  hwx0_4 : ∀ i : grid0.Coords, EltTy.bits .f32 = 32 ∨ (Rect.block (s := S20x80) S20x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S2048x20_S20x80_S2048x80_1_0_0_1_n_n : DotDims S2048x20 S20x80 S2048x80 where
  lhsContracting := [1]
  rhsContracting := [0]
  lhsNonContracting := [0]
  rhsNonContracting := [1]
  lhsBatch := []
  rhsBatch := []
  wf := dot_S2048x20_S20x80_S2048x80_1_0_0_1_n_n_wf

abbrev win0_0 : Pipeline.Window sig grid0 :=
  Pipeline.Window.ofSpec (Memref.whole main_v0) S2048x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x84.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x84.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_cst) S20x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x32768x84 : Shape := ⟨3, ![8, 32768, 84]⟩
abbrev S8x32768x21 : Shape := ⟨3, ![8, 32768, 21]⟩
abbrev S262144x21 : Shape := ⟨2, ![262144, 21]⟩
abbrev S_ : Shape := ⟨0, ![]⟩
abbrev S262144 : Shape := ⟨1, ![262144]⟩
abbrev S262144x1 : Shape := ⟨2, ![262144, 1]⟩
abbrev S8x32768x80 : Shape := ⟨3, ![8, 32768, 80]⟩
abbrev S8x32768x20 : Shape := ⟨3, ![8, 32768, 20]⟩
abbrev S8x32768x20x4 : Shape := ⟨4, ![8, 32768, 20, 4]⟩

abbrev nBuf : Space → Nat
  | .hbm => 64
  | .vmem => 0
  | .smem => 0
  | _ => 0

abbrev bufTy : (tb : Table) → Fin (tcTables nBuf tb) → BufTy
  | .hbm, ⟨0, _⟩ => ⟨S8x32768x84, .f32⟩
  | .hbm, ⟨1, _⟩ => ⟨S8x32768x21, .f32⟩
  | .hbm, ⟨2, _⟩ => ⟨S8x32768x84, .f32⟩
  | .hbm, ⟨3, _⟩ => ⟨S8x32768x21, .f32⟩
  | .hbm, ⟨4, _⟩ => ⟨S262144x21, .f32⟩
  | .hbm, ⟨5, _⟩ => ⟨S262144x21, .f32⟩
  | .hbm, ⟨6, _⟩ => ⟨S_, .f32⟩
  | .hbm, ⟨7, _⟩ => ⟨S262144, .f32⟩
  | .hbm, ⟨8, _⟩ => ⟨S262144x1, .f32⟩
  | .hbm, ⟨9, _⟩ => ⟨S262144x21, .f32⟩
  | .hbm, ⟨10, _⟩ => ⟨S262144x21, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S262144x21, .f32⟩
  | .hbm, ⟨15, _⟩ => ⟨S262144x21, .f32⟩
  | .hbm, ⟨16, _⟩ => ⟨S_, .f32⟩
  | .hbm, ⟨17, _⟩ => ⟨S262144x21, .f32⟩
  | .hbm, ⟨18, _⟩ => ⟨S262144x21, .f32⟩
  | .hbm, ⟨19, _⟩ => ⟨S262144x21, .f32⟩
  | .hbm, ⟨20, _⟩ => ⟨S262144x21, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x32768x80, .f32⟩
  | .hbm, ⟨29, _⟩ => ⟨S8x32768x80, .f32⟩
  | .hbm, ⟨30, _⟩ => ⟨S8x32768x20, .f32⟩
  | .hbm, ⟨31, _⟩ => ⟨S_, .f32⟩
  | .hbm, ⟨32, _⟩ => ⟨S8x32768x20, .f32⟩
  | .hbm, ⟨33, _⟩ => ⟨S8x32768x20, .i1⟩
  | .hbm, ⟨34, _⟩ => ⟨S8x32768x20, .f32⟩
  | .hbm, ⟨35, _⟩ => ⟨S8x32768x20x4, .f32⟩
  | .hbm, ⟨36, _⟩ => ⟨S8x32768x80, .f32⟩
  | .hbm, ⟨37, _⟩ => ⟨S8x32768x80, .f32⟩
  | .hbm, ⟨38, _⟩ => ⟨S8x32768x80, .f32⟩
  | .hbm, ⟨39, _⟩ => ⟨S8x32768x80, .f32⟩
  | .hbm, ⟨40, _⟩ => ⟨S8x32768x80, .f32⟩
  | .hbm, ⟨41, _⟩ => ⟨S_, .f32⟩
  | .hbm, ⟨42, _⟩ => ⟨S8x32768x80, .f32⟩
  | .hbm, ⟨43, _⟩ => ⟨S8x32768x80, .i1⟩
  | .hbm, ⟨44, _⟩ => ⟨S_, .f32⟩
  | .hbm, ⟨45, _⟩ => ⟨S8x32768x80, .f32⟩
  | .hbm, ⟨46, _⟩ => ⟨S8x32768x80, .f32⟩
  | .hbm, ⟨47, _⟩ => ⟨S8x32768x80, .f32⟩
  | .hbm, ⟨48, _⟩ => ⟨S_, .f32⟩
  | .hbm, ⟨49, _⟩ => ⟨S8x32768x80, .f32⟩
  | .hbm, ⟨50, _⟩ => ⟨S8x32768x80, .f32⟩
  | .hbm, ⟨51, _⟩ => ⟨S8x32768x80, .f32⟩
  | .hbm, ⟨52, _⟩ => ⟨S_, .f32⟩
  | .hbm, ⟨53, _⟩ => ⟨S8x32768x80, .f32⟩
  | .hbm, ⟨54, _⟩ => ⟨S8x32768x80, .f32⟩
  | .hbm, ⟨55, _⟩ => ⟨S8x32768x80, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8x32768x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  shapeCasts_S8x32768x21_S262144x21 : S8x32768x21.ShapeCasts S262144x21
  reducesTo_S262144x21_S262144_d1 : S262144x21.ReducesTo [1] S262144
  h_S_ : 0 < S_.numel
  bcast_S262144_S262144x1_0 : S262144.BroadcastsInDim S262144x1 (![0] : Fin 1 → Fin S262144x1.rank)
  bcast_S262144x1_S262144x21_0_1 : S262144x1.BroadcastsInDim S262144x21 (![0, 1] : Fin 2 → Fin S262144x21.rank)
  bcast_S_S262144x21 : S_.BroadcastsInDim S262144x21 (![] : Fin 0 → Fin S262144x21.rank)
  reducesTo_S262144_S_d0 : S262144.ReducesTo [0] S_
  slices_S8x32768x84_S8x32768x80_0_0_4 : S8x32768x84.Slices ![0, 0, 4] S8x32768x80
  slices_S8x32768x21_S8x32768x20_0_0_1 : S8x32768x21.Slices ![0, 0, 1] S8x32768x20
  bcast_S_S8x32768x20 : S_.BroadcastsInDim S8x32768x20 (![] : Fin 0 → Fin S8x32768x20.rank)
  bcast_S8x32768x20_S8x32768x20x4_0_1_2 : S8x32768x20.BroadcastsInDim S8x32768x20x4 (![0, 1, 2] : Fin 3 → Fin S8x32768x20x4.rank)
  shapeCasts_S8x32768x20x4_S8x32768x80 : S8x32768x20x4.ShapeCasts S8x32768x80
  bcast_S_S8x32768x80 : S_.BroadcastsInDim S8x32768x80 (![] : Fin 0 → Fin S8x32768x80.rank)
  reducesTo_S8x32768x80_S_d0_1_2 : S8x32768x80.ReducesTo [0, 1, 2] S_

variable [Facts₀]

class Facts : Prop extends Facts₀ where

variable [Facts]
-- ==== Proof.Pieces.lean ====
import proofs.«177230_j87917980549798_1_alg».proof.Proof.Gen.KernelIdeal.Frame
import Idealize.ShloMosaic.Lib.Pipeline.Value
import Idealize.ShloMosaic.Lib.Tactic

/-!
  What one run of the kernel body leaves in the three one-entry accumulators and, at the last grid point, in the
  output block — each as the body's pure arithmetic (a payload of the skeleton) applied to the point's input blocks and
  to what the accumulators held before. The accumulators hold: the sum of the rows' cross-entropy terms, the sum of
  the rows' smooth-L1 terms, and the sum of the rows' floor terms.
-/

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- At the grid's first point the three running totals start from the zero block: accumulator 0. -/
theorem sout_A_0 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : cond0_0 i) (hc1 : ¬cond0_1 i)
    (x0 : Vec F S2048x21 .f32) (x1 : Vec F S2048x21 .f32) (x2 : Vec F S2048x84 .f32) (x3 : Vec F S2048x84 .f32) (x4 : Vec F S20x80 .f32) :
    sout0_A_0 c i a1 h1 a2 h2 a3 h3 a4 h4 a5 h5 a6 h6 a7 h7 a8 h8 a9 h9 hc0 hc1 x0 x1 x2 x3 x4 = k0_pay8 x0 x1 (k0_pay2 (F := F)) := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  try sl_unfold_words
  rw [View.canon_cons_unit_zero (S := S1x1) hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the grid's first point the three running totals start from the zero block: accumulator 1. -/
theorem sout_A_1 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : cond0_0 i) (hc1 : ¬cond0_1 i)
    (x0 : Vec F S2048x21 .f32) (x1 : Vec F S2048x21 .f32) (x2 : Vec F S2048x84 .f32) (x3 : Vec F S2048x84 .f32) (x4 : Vec F S20x80 .f32) :
    sout0_A_1 c i a1 h1 a2 h2 a3 h3 a4 h4 a5 h5 a6 h6 a7 h7 a8 h8 a9 h9 hc0 hc1 x0 x1 x2 x3 x4 = k0_pay11 (k0_pay6 x2) (k0_pay7 x3) (k0_pay9 x0) x4 (k0_pay3 (F := F)) := by
  unfold sout0_A_1
  rw [View.read_writes_eq_canon _ _ _ (scover0_A_1 c i a1 h1 a2 h2 a3 h3 a4 h4 a5 h5 a6 h6 a7 h7 a8 h8 a9 h9 hc0 hc1 x0 x1 x2 x3 x4)]
  unfold kernelRun0_A
  dsimp only
  try sl_unfold_words
  rw [View.canon_cons_unit_zero (S := S1x1) hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the grid's first point the three running totals start from the zero block: accumulator 2. -/
theorem sout_A_2 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : cond0_0 i) (hc1 : ¬cond0_1 i)
    (x0 : Vec F S2048x21 .f32) (x1 : Vec F S2048x21 .f32) (x2 : Vec F S2048x84 .f32) (x3 : Vec F S2048x84 .f32) (x4 : Vec F S20x80 .f32) :
    sout0_A_2 c i a1 h1 a2 h2 a3 h3 a4 h4 a5 h5 a6 h6 a7 h7 a8 h8 a9 h9 hc0 hc1 x0 x1 x2 x3 x4 = k0_pay12 (k0_pay9 x0) x4 (k0_pay4 (F := F)) := by
  unfold sout0_A_2
  rw [View.read_writes_eq_canon _ _ _ (scover0_A_2 c i a1 h1 a2 h2 a3 h3 a4 h4 a5 h5 a6 h6 a7 h7 a8 h8 a9 h9 hc0 hc1 x0 x1 x2 x3 x4)]
  unfold kernelRun0_A
  dsimp only
  try sl_unfold_words
  rw [View.canon_cons_unit_zero (S := S1x1) hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At a middle point each running total grows by its block's contribution: accumulator 0. -/
theorem sout_B_0 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : ¬cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_B_0 c i a1 h1 a2 h2 a3 h3 a4 h4 a5 h5 a6 h6 a7 h7 a8 h8 a9 h9 hc0 hc1 x0 x1 x2 x3 x4 xs0 xs1 xs2 = k0_pay8 x0 x1 xs0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 xs0 xs1 xs2)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At a middle point each running total grows by its block's contribution: accumulator 1. -/
theorem sout_B_1 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : ¬cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_B_1 c i a1 h1 a2 h2 a3 h3 a4 h4 a5 h5 a6 h6 a7 h7 a8 h8 a9 h9 hc0 hc1 x0 x1 x2 x3 x4 xs0 xs1 xs2 = k0_pay11 (k0_pay6 x2) (k0_pay7 x3) (k0_pay9 x0) x4 xs1 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 xs0 xs1 xs2)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At a middle point each running total grows by its block's contribution: accumulator 2. -/
theorem sout_B_2 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : ¬cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_B_2 c i a1 h1 a2 h2 a3 h3 a4 h4 a5 h5 a6 h6 a7 h7 a8 h8 a9 h9 hc0 hc1 x0 x1 x2 x3 x4 xs0 xs1 xs2 = k0_pay12 (k0_pay9 x0) x4 xs2 := by
  unfold sout0_B_2
  rw [View.read_writes_eq_canon _ _ _ (scover0_B_2 c i a1 h1 a2 h2 a3 h3 a4 h4 a5 h5 a6 h6 a7 h7 a8 h8 a9 h9 hc0 hc1 x0 x1 x2 x3 x4 xs0 xs1 xs2)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the last point each running total grows by its block's contribution: accumulator 0. -/
theorem sout_C_0 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_C_0 c i a1 h1 a2 h2 a3 h3 a4 h4 a5 h5 a6 h6 a7 h7 a8 h8 a9 h9 hc0 hc1 x0 x1 x2 x3 x4 xs0 xs1 xs2 = k0_pay8 x0 x1 xs0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 xs0 xs1 xs2)]
  unfold kernelRun0_C
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the last point each running total grows by its block's contribution: accumulator 1. -/
theorem sout_C_1 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_C_1 c i a1 h1 a2 h2 a3 h3 a4 h4 a5 h5 a6 h6 a7 h7 a8 h8 a9 h9 hc0 hc1 x0 x1 x2 x3 x4 xs0 xs1 xs2 = k0_pay11 (k0_pay6 x2) (k0_pay7 x3) (k0_pay9 x0) x4 xs1 := by
  unfold sout0_C_1
  rw [View.read_writes_eq_canon _ _ _ (scover0_C_1 c i a1 h1 a2 h2 a3 h3 a4 h4 a5 h5 a6 h6 a7 h7 a8 h8 a9 h9 hc0 hc1 x0 x1 x2 x3 x4 xs0 xs1 xs2)]
  unfold kernelRun0_C
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the last point each running total grows by its block's contribution: accumulator 2. -/
theorem sout_C_2 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    sout0_C_2 c i a1 h1 a2 h2 a3 h3 a4 h4 a5 h5 a6 h6 a7 h7 a8 h8 a9 h9 hc0 hc1 x0 x1 x2 x3 x4 xs0 xs1 xs2 = k0_pay12 (k0_pay9 x0) x4 xs2 := by
  unfold sout0_C_2
  rw [View.read_writes_eq_canon _ _ _ (scover0_C_2 c i a1 h1 a2 h2 a3 h3 a4 h4 a5 h5 a6 h6 a7 h7 a8 h8 a9 h9 hc0 hc1 x0 x1 x2 x3 x4 xs0 xs1 xs2)]
  unfold kernelRun0_C
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

/-- At the last point the output block is the loss of the three finished totals. -/
theorem out_C_5 (c : Dev nD) (i : grid0.Coords) (a1 : Memref sig .tc .vmem S2048x21 .f32) (h1 : a1.IsWhole) (a2 : Memref sig .tc .vmem S2048x21 .f32) (h2 : a2.IsWhole) (a3 : Memref sig .tc .vmem S2048x84 .f32) (h3 : a3.IsWhole) (a4 : Memref sig .tc .vmem S2048x84 .f32) (h4 : a4.IsWhole) (a5 : Memref sig .tc .vmem S20x80 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (hc0 : ¬cond0_0 i) (hc1 : cond0_1 i)
    (x0 : Vec F S2048x21 .f32) (x1 : Vec F S2048x21 .f32) (x2 : Vec F S2048x84 .f32) (x3 : Vec F S2048x84 .f32) (x4 : Vec F S20x80 .f32) (xs0 : Vec F S1x1 .f32) (xs1 : Vec F S1x1 .f32) (xs2 : Vec F S1x1 .f32) :
    out0_C_5 c i a1 h1 a2 h2 a3 h3 a4 h4 a5 h5 a6 h6 a7 h7 a8 h8 a9 h9 hc0 hc1 x0 x1 x2 x3 x4 xs0 xs1 xs2
      = k0_pay1 (k0_pay8 x0 x1 xs0) (k0_pay12 (k0_pay9 x0) x4 xs2) (k0_pay11 (k0_pay6 x2) (k0_pay7 x3) (k0_pay9 x0) x4 xs1) := by
  unfold out0_C_5
  rw [View.read_writes_eq_canon _ _ _ (cover0_C_5 c i a1 h1 a2 h2 a3 h3 a4 h4 a5 h5 a6 h6 a7 h7 a8 h8 a9 h9 hc0 hc1 x0 x1 x2 x3 x4 xs0 xs1 xs2)]
  unfold kernelRun0_C
  dsimp only
  try sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S1x1) hz, View.readCov_unit_zero (S := S1x1) _ hz, View.ld_unit_zero (S := S2048x21) hz, View.ld_unit_zero (S := S2048x84) hz, View.ld_unit_zero (S := S20x80) hz]

end Cert.KernelIdeal.Pieces

end
-- ==== Proof.Cases.lean ====
import proofs.«177230_j87917980549798_1_alg».proof.Proof.Pieces

/-!
  The three running totals after each grid point, as the body's arithmetic applied to the point's blocks and to the
  totals after the point before: the recursion the accumulation follows.
-/

noncomputable section

namespace Cert.KernelIdeal.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The first point: each total is its block's contribution on top of the zero block. -/
theorem outsAt_A (c : Dev nD) (t : Fin cfg0.N) (h0 : t.val % 128 = 0) (h1 : ¬t.val % 128 = 127) :
    (outsAt0 m c t.val t.isLt).2.1 = k0_pay8 (iblk m c 0 t) (iblk m c 1 t) (k0_pay2 (F := F))
    ∧ (outsAt0 m c t.val t.isLt).2.2.1 = k0_pay11 (k0_pay6 (iblk m c 2 t)) (k0_pay7 (iblk m c 3 t)) (k0_pay9 (iblk m c 0 t)) (iblk m c 4 t) (k0_pay3 (F := F))
    ∧ (outsAt0 m c t.val t.isLt).2.2.2 = k0_pay12 (k0_pay9 (iblk m c 0 t)) (iblk m c 4 t) (k0_pay4 (F := F)) := by
  rw [outsAt0_A m c t h0 h1]
  exact ⟨Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    Pieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)⟩

/-- A middle point: each total is its block's contribution on top of the total after the point before. -/
theorem outsAt_B (c : Dev nD) (t : Fin cfg0.N) (h0 : ¬t.val % 128 = 0) (h1 : ¬t.val % 128 = 127) :
    (outsAt0 m c t.val t.isLt).2.1 = k0_pay8 (iblk m c 0 t) (iblk m c 1 t) (outsAt0 m c (t.val - 1) (Nat.lt_of_le_of_lt (Nat.sub_le _ _) t.isLt)).2.1
    ∧ (outsAt0 m c t.val t.isLt).2.2.1 = k0_pay11 (k0_pay6 (iblk m c 2 t)) (k0_pay7 (iblk m c 3 t)) (k0_pay9 (iblk m c 0 t)) (iblk m c 4 t) (outsAt0 m c (t.val - 1) (Nat.lt_of_le_of_lt (Nat.sub_le _ _) t.isLt)).2.2.1
    ∧ (outsAt0 m c t.val t.isLt).2.2.2 = k0_pay12 (k0_pay9 (iblk m c 0 t)) (iblk m c 4 t) (outsAt0 m c (t.val - 1) (Nat.lt_of_le_of_lt (Nat.sub_le _ _) t.isLt)).2.2.2 := by
  rw [outsAt0_B m c t h0 h1]
  exact ⟨Pieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point: the totals grow as at a middle point, and the output block is the loss of the finished totals. -/
theorem outsAt_C (c : Dev nD) (t : Fin cfg0.N) (h0 : ¬t.val % 128 = 0) (h1 : t.val % 128 = 127) :
    (outsAt0 m c t.val t.isLt).1 = k0_pay1 (k0_pay8 (iblk m c 0 t) (iblk m c 1 t) (outsAt0 m c (t.val - 1) (Nat.lt_of_le_of_lt (Nat.sub_le _ _) t.isLt)).2.1) (k0_pay12 (k0_pay9 (iblk m c 0 t)) (iblk m c 4 t) (outsAt0 m c (t.val - 1) (Nat.lt_of_le_of_lt (Nat.sub_le _ _) t.isLt)).2.2.2) (k0_pay11 (k0_pay6 (iblk m c 2 t)) (k0_pay7 (iblk m c 3 t)) (k0_pay9 (iblk m c 0 t)) (iblk m c 4 t) (outsAt0 m c (t.val - 1) (Nat.lt_of_le_of_lt (Nat.sub_le _ _) t.isLt)).2.2.1)
    ∧ (outsAt0 m c t.val t.isLt).2.1 = k0_pay8 (iblk m c 0 t) (iblk m c 1 t) (outsAt0 m c (t.val - 1) (Nat.lt_of_le_of_lt (Nat.sub_le _ _) t.isLt)).2.1
    ∧ (outsAt0 m c t.val t.isLt).2.2.1 = k0_pay11 (k0_pay6 (iblk m c 2 t)) (k0_pay7 (iblk m c 3 t)) (k0_pay9 (iblk m c 0 t)) (iblk m c 4 t) (outsAt0 m c (t.val - 1) (Nat.lt_of_le_of_lt (Nat.sub_le _ _) t.isLt)).2.2.1
    ∧ (outsAt0 m c t.val t.isLt).2.2.2 = k0_pay12 (k0_pay9 (iblk m c 0 t)) (iblk m c 4 t) (outsAt0 m c (t.val - 1) (Nat.lt_of_le_of_lt (Nat.sub_le _ _) t.isLt)).2.2.2 := by
  rw [outsAt0_C m c t h0 h1]
  exact ⟨Pieces.out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Cases

end
-- ==== Proof.Spec.lean ====
import Idealize.ShloMosaic.PureOps.Ideal
import Idealize.ShloMosaic.PureOps.Ideal.Laws
import Idealize.ShloMosaic.Lib.ValueIdx

/-!
  The detection loss as ONE function of the four argument arrays, on the extended reals.

  The arrays are read row by row: the 8 x 32768 regions of interest are numbered `R = 32768 b + n`, and
  every quantity below depends on one row of each array only.

  * classification: row `R` contributes `0 - sum_c t_c * log (clip (o_c / sum_c' o_c'))`, the clip to
    `[1e-7, 1 - 1e-7]`; the loss is the sum of the contributions over all rows divided by the number of rows;
  * regression: the foreground indicator of class `1 + j / 4` masks coordinate `4 + j` of the predicted and of
    the target deltas, the smooth-L1 of the masked difference is summed over the 80 coordinates and over all rows,
    and divided by `max (sum floor (mask / 4)) 1e-7`.
-/

noncomputable section

namespace Cert.Spec

open Idealize.ShloMosaic Idealize.ShloMosaic.ValueIdx
open scoped BigOperators

/-- The lower clip bound and the regression denominator's floor, the f32 nearest to 1e-7. -/
abbrev lo : EReal := Ideal.ofBits .f32 0x33D6BF95#32
/-- The upper clip bound, the f32 nearest to 1 - 1e-7. -/
abbrev hi : EReal := Ideal.ofBits .f32 0x3F7FFFFE#32
abbrev one : EReal := Ideal.ofBits .f32 0x3F800000#32
abbrev half : EReal := Ideal.ofBits .f32 0x3F000000#32
abbrev four : EReal := Ideal.ofBits .f32 0x40800000#32
/-- The number of rows, 262144, as a float. -/
abbrev nrows : EReal := Ideal.ofBits .f32 0x48800000#32

/-- One row's cross-entropy term: `0 - sum_c t_c log (clip (o_c / sum o))`. -/
def ceRow (p q : Fin 21 → EReal) : EReal :=
  0 - ∑ c : Fin 21, p c * Ideal.log (min hi (max lo (Ideal.div (q c) (∑ c' : Fin 21, q c'))))

/-- The foreground indicator of a target score: 1 where it equals one, else 0. -/
def fgOf (x : EReal) : EReal := (((Ideal.cmp .oeq x one).toNat : ℝ) : EReal)

/-- Coordinate `j` of the regression mask of a row: the foreground indicator of class `1 + j / 4`. -/
def maskRow (p : Fin 21 → EReal) (j : Fin 80) : EReal := fgOf (p ⟨1 + j.val / 4, by omega⟩)

/-- Smooth L1 of the masked difference of a predicted delta `a` and a target delta `b`. -/
def sl1 (a b mk : EReal) : EReal :=
  Scalar.select (Ideal.cmp .olt (max (a * mk - b * mk) (-(a * mk - b * mk))) one)
    (half * max (a * mk - b * mk) (-(a * mk - b * mk)) * max (a * mk - b * mk) (-(a * mk - b * mk)))
    (max (a * mk - b * mk) (-(a * mk - b * mk)) - half)

/-- One row's smooth-L1 sum over its 80 foreground coordinates (`u` the target deltas, `v` the predicted). -/
def slRow (p : Fin 21 → EReal) (u v : Fin 84 → EReal) : EReal :=
  ∑ j : Fin 80, sl1 (v ⟨4 + j.val, by omega⟩) (u ⟨4 + j.val, by omega⟩) (maskRow p j)

/-- One row's share of the regression denominator: `sum_j floor (mask_j / 4)`. -/
def mfRow (p : Fin 21 → EReal) : EReal :=
  ∑ j : Fin 80, Ideal.liftRound Int.floor (Ideal.div (maskRow p j) four)

/-- The loss from the three totals. -/
def lossOf (ce sl mf : EReal) : EReal := Ideal.div ce nrows + Ideal.div sl (max mf lo)

/-- The batch coordinate of row `R`. -/
abbrev rowB (R : Fin 262144) : Fin 8 := ⟨R.val / 32768, by omega⟩
/-- The region coordinate of row `R`. -/
abbrev rowN (R : Fin 262144) : Fin 32768 := ⟨R.val % 32768, by omega⟩

/-- Row `R` of a score array. -/
def row21 (X : (⟨3, ![8, 32768, 21]⟩ : Shape).Idx → EReal) (R : Fin 262144) : Fin 21 → EReal :=
  fun c => X (ix3 (rowB R) (rowN R) c)
/-- Row `R` of a delta array. -/
def row84 (X : (⟨3, ![8, 32768, 84]⟩ : Shape).Idx → EReal) (R : Fin 262144) : Fin 84 → EReal :=
  fun c => X (ix3 (rowB R) (rowN R) c)

/-- THE LOSS of target deltas `X0`, target scores `X1`, predicted deltas `X2`, predicted scores `X3`. -/
def loss (X0 : (⟨3, ![8, 32768, 84]⟩ : Shape).Idx → EReal) (X1 : (⟨3, ![8, 32768, 21]⟩ : Shape).Idx → EReal)
    (X2 : (⟨3, ![8, 32768, 84]⟩ : Shape).Idx → EReal) (X3 : (⟨3, ![8, 32768, 21]⟩ : Shape).Idx → EReal) : EReal :=
  lossOf (∑ R : Fin 262144, ceRow (row21 X1 R) (row21 X3 R))
    (∑ R : Fin 262144, slRow (row21 X1 R) (row84 X0 R) (row84 X2 R))
    (∑ R : Fin 262144, mfRow (row21 X1 R))

end Cert.Spec

end
-- ==== Proof.Blocks.lean ====
import proofs.«177230_j87917980549798_1_alg».proof.Proof.Gen.KernelIdeal.Frame
import proofs.«177230_j87917980549798_1_alg».proof.Proof.Spec
import Idealize.ShloMosaic.Lib.Pipeline.Value
import Idealize.ShloMosaic.Lib.StableHlo.Run
import Idealize.ShloMosaic.Lib.Tactic

/-!
  The windows' blocks as rows of the argument arrays. The four big operands are the argument arrays flattened to
  262144 rows (row `R = 32768 b + n`), cut into 128 blocks of 2048 consecutive rows: block `t` holds rows
  `2048 t` to `2048 t + 2047`. The fifth operand is the constant 20 x 80 table, one block.
-/

noncomputable section

namespace Cert.KernelIdeal.Blocks

open Cert.KernelIdeal Cert.KernelIdeal.Gen Idealize.ShloMosaic Idealize.ShloMosaic.TcCoe Idealize.ShloMosaic.Tactic Idealize.SL.Sem
open Idealize.ShloMosaic.ValueIdx Cert.Spec

variable (m : (ℓ : Loc nD τ sig) → Buf (Elt Ideal) ℓ)

/-- The row number `2048 t + r` of row `r` of block `t`. -/
abbrev rowOf (t : Fin cfg0.N) (r : Fin 2048) : Fin 262144 :=
  ⟨2048 * t.val + r.val, by have h := t.isLt; have hN : cfg0.N = 128 := N_0; omega⟩

/-! ## The arrays as the region finds them: the arguments flattened, and the table -/

theorem V_v0 (c : Dev nD) : (V m c main_v0 : S262144x21.Idx → Elt Ideal .f32)
    = shapeCast S262144x21 (m ((c : Thread nD τ).loc main_arg1)) shapeCasts_S8x32768x21_S262144x21 := by
  show StableHlo.after hostOps0 (fun b => m (c, b)) (Proc.devRef .tc main_v0) = _
  after_results <;> rfl

theorem V_v1 (c : Dev nD) : (V m c main_v1 : S262144x21.Idx → Elt Ideal .f32)
    = shapeCast S262144x21 (m ((c : Thread nD τ).loc main_arg3)) shapeCasts_S8x32768x21_S262144x21 := by
  show StableHlo.after hostOps0 (fun b => m (c, b)) (Proc.devRef .tc main_v1) = _
  after_results <;> rfl

theorem V_v2 (c : Dev nD) : (V m c main_v2 : S262144x84.Idx → Elt Ideal .f32)
    = shapeCast S262144x84 (m ((c : Thread nD τ).loc main_arg0)) shapeCasts_S8x32768x84_S262144x84 := by
  show StableHlo.after hostOps0 (fun b => m (c, b)) (Proc.devRef .tc main_v2) = _
  after_results <;> rfl

theorem V_v3 (c : Dev nD) : (V m c main_v3 : S262144x84.Idx → Elt Ideal .f32)
    = shapeCast S262144x84 (m ((c : Thread nD τ).loc main_arg2)) shapeCasts_S8x32768x84_S262144x84 := by
  show StableHlo.after hostOps0 (fun b => m (c, b)) (Proc.devRef .tc main_v3) = _
  after_results <;> rfl

theorem V_cst (c : Dev nD) : (V m c main_cst : S20x80.Idx → Elt Ideal .f32)
    = (fun i => FloatOps.ofBits (F := Ideal) .f32 (lit0 (S20x80.rowMajor i)) : S20x80.Idx → Elt Ideal .f32) := by
  show StableHlo.after hostOps0 (fun b => m (c, b)) (Proc.devRef .tc main_cst) = _
  after_results <;> rfl

/-- A flattened score array at row `R` is the argument at batch `R / 32768`, region `R % 32768`. -/
theorem flat21_apply (X : S8x32768x21.Idx → Elt Ideal .f32) (R : Fin 262144) (q : Fin 21) :
    shapeCast S262144x21 X shapeCasts_S8x32768x21_S262144x21 (ix2 R q) = row21 X R q :=
  shapeCast_apply X shapeCasts_S8x32768x21_S262144x21 (ix2 R q) (ix3 (rowB R) (rowN R) q) (by
    rewrite [Shape.rowMajor_val_three, Shape.rowMajor_val_two]
    have hR : R.val < 262144 := R.isLt
    show (R.val / 32768 * 32768 + R.val % 32768) * 21 + q.val = R.val * 21 + q.val
    omega)

/-- A flattened delta array at row `R` likewise. -/
theorem flat84_apply (X : S8x32768x84.Idx → Elt Ideal .f32) (R : Fin 262144) (q : Fin 84) :
    shapeCast S262144x84 X shapeCasts_S8x32768x84_S262144x84 (ix2 R q) = row84 X R q :=
  shapeCast_apply X shapeCasts_S8x32768x84_S262144x84 (ix2 R q) (ix3 (rowB R) (rowN R) q) (by
    rewrite [Shape.rowMajor_val_three, Shape.rowMajor_val_two]
    have hR : R.val < 262144 := R.isLt
    show (R.val / 32768 * 32768 + R.val % 32768) * 84 + q.val = R.val * 84 + q.val
    omega)

/-! ## The printed index maps, decided over the grid -/

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)
theorem idx_facts2 : ∀ t : Fin cfg0.N, win0_2.index t (0 : Fin 2) = t.val ∧ win0_2.index t (1 : Fin 2) = 0 :=
  (by decide +kernel : ∀ t : Fin grid0.N, _)
theorem idx_facts3 : ∀ t : Fin cfg0.N, win0_3.index t (0 : Fin 2) = t.val ∧ win0_3.index t (1 : Fin 2) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)

/-! ## A block read through its window, over any contents of the array -/

/-- Window 0's block at point `t`, read at row `r` and column `q` of the block, is the array at row `2048 t + r`. -/
theorem blk0_read (c : Dev nD) (A : Buf (Elt Ideal) ((c : Thread nD τ).loc main_v0)) (t : Fin cfg0.N) (r : Fin 2048) (q : Fin 21) :
    ((cfg0.win 0).blk t).view.read (Elt Ideal) A (ix2 r q) = A (ix2 (rowOf t r) q) := by
  show A (((cfg0.win 0).blk t).view.emb (ix2 r q)) = _
  refine congrArg A (funext fun a => Fin.ext ?_)
  match a with
  | ⟨0, _⟩ => show win0_0.index t (0 : Fin 2) * 2048 + 1 * r.val = 2048 * t.val + r.val; rw [(idx_facts0 t).1]; omega
  | ⟨1, _⟩ => show win0_0.index t (1 : Fin 2) * 21 + 1 * q.val = q.val; rw [(idx_facts0 t).2]; omega

/-- Window 1's block at point `t`, read at row `r` and column `q` of the block, is the array at row `2048 t + r`. -/
theorem blk1_read (c : Dev nD) (A : Buf (Elt Ideal) ((c : Thread nD τ).loc main_v1)) (t : Fin cfg0.N) (r : Fin 2048) (q : Fin 21) :
    ((cfg0.win 1).blk t).view.read (Elt Ideal) A (ix2 r q) = A (ix2 (rowOf t r) q) := by
  show A (((cfg0.win 1).blk t).view.emb (ix2 r q)) = _
  refine congrArg A (funext fun a => Fin.ext ?_)
  match a with
  | ⟨0, _⟩ => show win0_1.index t (0 : Fin 2) * 2048 + 1 * r.val = 2048 * t.val + r.val; rw [(idx_facts1 t).1]; omega
  | ⟨1, _⟩ => show win0_1.index t (1 : Fin 2) * 21 + 1 * q.val = q.val; rw [(idx_facts1 t).2]; omega

/-- Window 2's block at point `t`, read at row `r` and column `q` of the block, is the array at row `2048 t + r`. -/
theorem blk2_read (c : Dev nD) (A : Buf (Elt Ideal) ((c : Thread nD τ).loc main_v2)) (t : Fin cfg0.N) (r : Fin 2048) (q : Fin 84) :
    ((cfg0.win 2).blk t).view.read (Elt Ideal) A (ix2 r q) = A (ix2 (rowOf t r) q) := by
  show A (((cfg0.win 2).blk t).view.emb (ix2 r q)) = _
  refine congrArg A (funext fun a => Fin.ext ?_)
  match a with
  | ⟨0, _⟩ => show win0_2.index t (0 : Fin 2) * 2048 + 1 * r.val = 2048 * t.val + r.val; rw [(idx_facts2 t).1]; omega
  | ⟨1, _⟩ => show win0_2.index t (1 : Fin 2) * 84 + 1 * q.val = q.val; rw [(idx_facts2 t).2]; omega

/-- Window 3's block at point `t`, read at row `r` and column `q` of the block, is the array at row `2048 t + r`. -/
theorem blk3_read (c : Dev nD) (A : Buf (Elt Ideal) ((c : Thread nD τ).loc main_v3)) (t : Fin cfg0.N) (r : Fin 2048) (q : Fin 84) :
    ((cfg0.win 3).blk t).view.read (Elt Ideal) A (ix2 r q) = A (ix2 (rowOf t r) q) := by
  show A (((cfg0.win 3).blk t).view.emb (ix2 r q)) = _
  refine congrArg A (funext fun a => Fin.ext ?_)
  match a with
  | ⟨0, _⟩ => show win0_3.index t (0 : Fin 2) * 2048 + 1 * r.val = 2048 * t.val + r.val; rw [(idx_facts3 t).1]; omega
  | ⟨1, _⟩ => show win0_3.index t (1 : Fin 2) * 84 + 1 * q.val = q.val; rw [(idx_facts3 t).2]; omega

/-- Window 4's block at point `t`, read at row `r` and column `q` of the block, is the array at the same entry (the block is the whole table). -/
theorem blk4_read (c : Dev nD) (A : Buf (Elt Ideal) ((c : Thread nD τ).loc main_cst)) (t : Fin cfg0.N) (r : Fin 20) (q : Fin 80) :
    ((cfg0.win 4).blk t).view.read (Elt Ideal) A (ix2 r q) = A (ix2 r q) := by
  show A (((cfg0.win 4).blk t).view.emb (ix2 r q)) = _
  refine congrArg A (funext fun a => Fin.ext ?_)
  match a with
  | ⟨0, _⟩ => show win0_4.index t (0 : Fin 2) * 20 + 1 * r.val = r.val; rw [(idx_facts4 t).1]; omega
  | ⟨1, _⟩ => show win0_4.index t (1 : Fin 2) * 80 + 1 * q.val = q.val; rw [(idx_facts4 t).2]; omega

/-! ## The point's input blocks as rows of the arguments -/

/-- The target-scores block at point `t`: row `r` is row `2048 t + r` of the target scores. -/
theorem iblk0_apply (c : Dev nD) (t : Fin cfg0.N) (r : Fin 2048) (q : Fin 21) :
    (iblk m c 0 t : Vec Ideal S2048x21 .f32) (ix2 r q) = row21 (m ((c : Thread nD τ).loc main_arg1)) (rowOf t r) q :=
  (blk0_read c (V m c main_v0) t r q).trans ((congrFun (V_v0 m c) (ix2 (rowOf t r) q)).trans (flat21_apply _ _ _))

/-- The predicted-scores block. -/
theorem iblk1_apply (c : Dev nD) (t : Fin cfg0.N) (r : Fin 2048) (q : Fin 21) :
    (iblk m c 1 t : Vec Ideal S2048x21 .f32) (ix2 r q) = row21 (m ((c : Thread nD τ).loc main_arg3)) (rowOf t r) q :=
  (blk1_read c (V m c main_v1) t r q).trans ((congrFun (V_v1 m c) (ix2 (rowOf t r) q)).trans (flat21_apply _ _ _))

/-- The target-deltas block. -/
theorem iblk2_apply (c : Dev nD) (t : Fin cfg0.N) (r : Fin 2048) (q : Fin 84) :
    (iblk m c 2 t : Vec Ideal S2048x84 .f32) (ix2 r q) = row84 (m ((c : Thread nD τ).loc main_arg0)) (rowOf t r) q :=
  (blk2_read c (V m c main_v2) t r q).trans ((congrFun (V_v2 m c) (ix2 (rowOf t r) q)).trans (flat84_apply _ _ _))

/-- The predicted-deltas block. -/
theorem iblk3_apply (c : Dev nD) (t : Fin cfg0.N) (r : Fin 2048) (q : Fin 84) :
    (iblk m c 3 t : Vec Ideal S2048x84 .f32) (ix2 r q) = row84 (m ((c : Thread nD τ).loc main_arg2)) (rowOf t r) q :=
  (blk3_read c (V m c main_v3) t r q).trans ((congrFun (V_v3 m c) (ix2 (rowOf t r) q)).trans (flat84_apply _ _ _))

/-- The table's block is the table. -/
theorem iblk4_apply (c : Dev nD) (t : Fin cfg0.N) (k : Fin 20) (j : Fin 80) :
    (iblk m c 4 t : Vec Ideal S20x80 .f32) (ix2 k j) = Ideal.ofBits .f32 (lit0 (S20x80.rowMajor (ix2 k j))) :=
  (blk4_read c (V m c main_cst) t k j).trans (congrFun (V_cst m c) (ix2 k j))

end Cert.KernelIdeal.Blocks

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.KernelCE.lean ====
/-
  The kernel body's cross-entropy payload and its final payload, read at an index, on the extended reals.

  One grid step holds a block of 2048 rows of the target scores (`x0`) and of the predicted scores (`x1`), 21 lanes
  each. The cross-entropy payload normalises each row of `x1` by its lane sum, clips the quotient to `[lo, hi]`, takes
  the logarithm, weights it by the row of `x0`, sums the 21 lanes, negates, sums the 2048 rows and adds the running
  total. Read at its one index this is the running total plus the sum over the block's rows of `Spec.ceRow`.

  The final payload combines the three totals: the cross-entropy total over the number of rows plus the smooth-L1
  total over the floor total bounded below by `lo`, which is `Spec.lossOf`. The three initial payloads are zero.
-/
import proofs.«177230_j87917980549798_1_alg».proof.Proof.Gen.KernelIdeal.Skeleton
import proofs.«177230_j87917980549798_1_alg».proof.Proof.Spec
import proofs.«177230_j87917980549798_1_alg».proof.Proof.LibKeepdims
import Idealize.ShloMosaic.Lib.ValueIdx
import Idealize.ShloMosaic.Lib.Pipeline.Value
import Idealize.ShloMosaic.PureOps.Ideal.Laws
import Idealize.ShloMosaic.Lib.ValueLayout

noncomputable section

namespace Cert.KernelCE

open Cert.KernelIdeal Cert.KernelIdeal.Gen Idealize.ShloMosaic Idealize.ShloMosaic.ValueIdx
open scoped BigOperators

/-- The sum over the 21 lanes of a `[2048, 21]` block, read at row `r`: `∑ c, src (r, c)`. -/
theorem laneSum_apply (src : FVec Ideal S2048x21 .f32) (h : S2048x21.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ c : Fin 21, src (ix2 r c) :=
  (Ideal.multiReduction_add_single src 0x00000000#32 h hφ hacc (ix1 r)).trans
    (Finset.sum_congr rfl fun c _ => congrArg src (funext fun a => Fin.ext (by
      match a with
      | ⟨0, _⟩ => rfl
      | ⟨1, _⟩ => rfl)))

/-- The sum over the 2048 rows of a `[2048, 1]` column, read at its one index: `∑ r, src (r, u)`. -/
theorem colSum_apply (src : FVec Ideal S2048x1 .f32) (h : S2048x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ r : Fin 2048, src (ix2 r u) :=
  (Ideal.multiReduction_add_single src 0x00000000#32 h hφ hacc (ix1 u)).trans
    (Finset.sum_congr rfl fun r _ => congrArg src (funext fun a => Fin.ext (by
      match a with
      | ⟨0, _⟩ => rfl
      | ⟨1, _⟩ => rfl)))

/-- The cross-entropy payload at its one index: the running total plus the block's 2048 row terms. -/
theorem pay8_apply (x0 x1 : Vec Ideal S2048x21 .f32) (acc : Vec Ideal S1x1 .f32) (j : S1x1.Idx) :
    k0_pay8 (F := Ideal) x0 x1 acc j
      = acc j + ∑ r : Fin 2048, Cert.Spec.ceRow (fun c => x0 (ix2 r c)) (fun c => x1 (ix2 r c)) := by
  obtain ⟨p, q, rfl⟩ : ∃ (p : Fin 1) (q : Fin 1), j = ix2 p q := ⟨j 0, j 1, eq_ix2 j⟩
  unfold k0_pay8 k0_pay5
  simp only [shapeCast_self, Ideal.ofBits_def]
  -- the running total plus the column sum of the negated row sums
  refine (addf_apply _ _ _).trans ?_
  refine congrArg (fun z : EReal => (acc (ix2 p q) : EReal) + z) ?_
  refine (Cert.LibKeepdims.shapeCast_a_a1_apply _ _ p q).trans ?_
  refine (colSum_apply _ _ _ _ p).trans ?_
  refine Finset.sum_congr rfl fun r _ => ?_
  -- one row: zero minus the lane sum of the weighted logarithms
  refine (subf_apply _ _ _).trans ?_
  unfold Cert.Spec.ceRow
  refine congrArg₂ (fun a b : EReal => a - b) ((broadcast_apply _ _).trans Ideal.ofBits_zero_f32) ?_
  refine (Cert.LibKeepdims.shapeCast_a_a1_apply _ _ r p).trans ?_
  refine (laneSum_apply _ _ _ _ r).trans ?_
  refine Finset.sum_congr rfl fun c _ => ?_
  -- one lane: the target score times the logarithm of the clipped normalised predicted score
  refine (mulf_apply _ _ _).trans ?_
  refine congrArg (fun z : EReal => (x0 (ix2 r c) : EReal) * z) ?_
  refine (Ideal.log_def _).trans ?_
  refine congrArg Ideal.log ?_
  refine (minimumf_apply _ _ _).trans ?_
  refine congrArg₂ (fun a b : EReal => min a b) (broadcast_apply _ _) ?_
  refine (maximumf_apply _ _ _).trans ?_
  refine congrArg₂ (fun a b : EReal => max a b) (broadcast_apply _ _) ?_
  refine (divf_apply _ _ _).trans ?_
  refine congrArg (fun z : EReal => Ideal.div (x1 (ix2 r c) : EReal) z) ?_
  -- the divisor: the row's lane sum, kept as a column and spread along the row
  refine (Cert.LibKeepdims.broadcastTo_a1_ab_apply _ _ r c).trans ?_
  refine (Cert.LibKeepdims.shapeCast_a_a1_apply _ _ r (0 : Fin 1)).trans ?_
  exact laneSum_apply _ _ _ _ r

/-- The final payload at its one index: the loss of the three totals. -/
theorem pay1_apply (a b d : Vec Ideal S1x1 .f32) (j : S1x1.Idx) :
    k0_pay1 (F := Ideal) a b d j = Cert.Spec.lossOf (a j) (d j) (b j) := by
  unfold k0_pay1 Cert.Spec.lossOf
  try simp only [Ideal.ofBits_def]
  refine (addf_apply _ _ _).trans ?_
  refine congrArg₂ (fun x y : EReal => x + y) ?_ ?_
  · refine (divf_apply _ _ _).trans ?_
    exact congrArg (fun z : EReal => Ideal.div (a j : EReal) z) (broadcast_apply _ _)
  · refine (divf_apply _ _ _).trans ?_
    refine congrArg (fun z : EReal => Ideal.div (d j : EReal) z) ?_
    refine (maximumf_apply _ _ _).trans ?_
    exact congrArg (fun z : EReal => max (b j : EReal) z) (broadcast_apply _ _)

/-- The cross-entropy total starts at zero. -/
theorem pay2_apply (j : S1x1.Idx) : k0_pay2 (F := Ideal) j = 0 := by
  unfold k0_pay2
  simp only [shapeCast_self, Ideal.ofBits_def]
  exact (broadcast_apply _ _).trans Ideal.ofBits_zero_f32

/-- The smooth-L1 total starts at zero. -/
theorem pay3_apply (j : S1x1.Idx) : k0_pay3 (F := Ideal) j = 0 := by
  unfold k0_pay3
  simp only [shapeCast_self, Ideal.ofBits_def]
  exact (broadcast_apply _ _).trans Ideal.ofBits_zero_f32

/-- The floor total starts at zero. -/
theorem pay4_apply (j : S1x1.Idx) : k0_pay4 (F := Ideal) j = 0 := by
  unfold k0_pay4
  simp only [shapeCast_self, Ideal.ofBits_def]
  exact (broadcast_apply _ _).trans Ideal.ofBits_zero_f32

end Cert.KernelCE

end
-- ==== Proof.KernelMask.lean ====
/-
  The kernel body's MASK and its two regression payloads, each read at an index, at the ideal values.

  The mask is a product of two 0/1 arrays: the 2048 x 20 array of foreground bits (bit (r, k) says that
  score 1 + k of row r equals one) times the constant 20 x 80 table whose entry (k, j) is one exactly
  where j / 4 = k. Row k of the table has its ones in columns 4k .. 4k + 3, so the product at (r, j) has
  the single non-zero term k = j / 4: the mask repeats each foreground indicator four times.

  With the mask known at an index, the smooth-L1 payload and the foreground-count payload are pointwise
  functions of the mask and of the delta blocks, summed over the 80 lanes and then over the 2048 rows,
  and added to the accumulator they are handed.
-/
import proofs.«177230_j87917980549798_1_alg».proof.Proof.Gen.KernelIdeal.Skeleton
import proofs.«177230_j87917980549798_1_alg».proof.Proof.Spec
import proofs.«177230_j87917980549798_1_alg».proof.Proof.LibKeepdims
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

noncomputable section

namespace Cert.KernelMask

open Cert.KernelIdeal Cert.KernelIdeal.Gen Idealize.ShloMosaic Idealize.ShloMosaic.ValueIdx
open scoped BigOperators

/-! ## The constant table -/

/-- The table's words: entry i is the word of one where (i mod 80) / 4 = i / 80, else the zero word. -/
theorem lit0t_word : ∀ i, i < 1600 →
    lit0t i = if (i % 80) / 4 = i / 80 then 0x3F800000#32 else 0x00000000#32 := by decide +kernel

/-- The constant 20 x 80 table: entry (k, j) is one where j / 4 = k, else zero. -/
theorem lit_table (k : Fin 20) (j : Fin 80) :
    Ideal.ofBits .f32 (lit0 (S20x80.rowMajor (ix2 k j))) = if j.val / 4 = k.val then (1 : EReal) else 0 := by
  have hv : (S20x80.rowMajor (ix2 k j)).val = k.val * 80 + j.val := by
    rw [Shape.rowMajor_val_two]; rfl
  have hlt : (S20x80.rowMajor (ix2 k j)).val < 1600 := (S20x80.rowMajor (ix2 k j)).isLt
  have hw : lit0 (S20x80.rowMajor (ix2 k j)) = lit0t (S20x80.rowMajor (ix2 k j)).val := rfl
  rw [hw, lit0t_word _ hlt, hv]
  have hj := j.isLt
  have hk := k.isLt
  have h1 : (k.val * 80 + j.val) % 80 / 4 = j.val / 4 := by omega
  have h2 : (k.val * 80 + j.val) / 80 = k.val := by omega
  rw [h1, h2]
  by_cases h : j.val / 4 = k.val
  · rw [if_pos h, if_pos h]; exact Ideal.ofBits_one_f32
  · rw [if_neg h, if_neg h]; exact Ideal.ofBits_zero_f32

/-! ## Slices, the contraction, and the two sums, each read at an index -/

/-- The score block without its first column, at (r, k): column 1 + k. -/
theorem slice_scores (x : FVec Ideal S2048x21 .f32) (h : S2048x21.Slices ![0, 1] S2048x20) (r : Fin 2048) (k : Fin 20) :
    extractStridedSlice S2048x20 ![0, 1] x h (ix2 r k) = x (ix2 r ⟨1 + k.val, by omega⟩) :=
  extractStridedSlice_apply ![0, 1] x h (ix2 r k) (ix2 r ⟨1 + k.val, by omega⟩) (by
    intro a
    match a with
    | ⟨0, _⟩ => exact (Nat.zero_add _).symm
    | ⟨1, _⟩ => rfl)

/-- A delta block without its first four columns, at (r, j): column 4 + j. -/
theorem slice_deltas (x : FVec Ideal S2048x84 .f32) (h : S2048x84.Slices ![0, 4] S2048x80) (r : Fin 2048) (j : Fin 80) :
    extractStridedSlice S2048x80 ![0, 4] x h (ix2 r j) = x (ix2 r ⟨4 + j.val, by omega⟩) :=
  extractStridedSlice_apply ![0, 4] x h (ix2 r j) (ix2 r ⟨4 + j.val, by omega⟩) (by
    intro a
    match a with
    | ⟨0, _⟩ => exact (Nat.zero_add _).symm
    | ⟨1, _⟩ => rfl)

/-- A one-bit word widened to 32 bits and read as a signed integer is the bit. -/
theorem sitofp_bit (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

theorem lhs_free (i : S2048x80.Idx) (q : dot_S2048x20_S20x80_S2048x80_1_0_0_1_n_n.contr.Idx) :
    (dot_S2048x20_S20x80_S2048x80_1_0_0_1_n_n.lhsIdx i q 0).val = (i 0).val := by
  unfold DotDims.lhsIdx
  rw [dif_neg (show ¬(0 : Fin S2048x20.rank) ∈ dot_S2048x20_S20x80_S2048x80_1_0_0_1_n_n.lhsBatch by decide),
    dif_pos (show (0 : Fin S2048x20.rank) ∈ dot_S2048x20_S20x80_S2048x80_1_0_0_1_n_n.lhsNonContracting by decide)]
  rfl

theorem lhs_contr (i : S2048x80.Idx) (q : dot_S2048x20_S20x80_S2048x80_1_0_0_1_n_n.contr.Idx) :
    (dot_S2048x20_S20x80_S2048x80_1_0_0_1_n_n.lhsIdx i q 1).val = (q ⟨0, by decide⟩).val :=
  dot_S2048x20_S20x80_S2048x80_1_0_0_1_n_n.lhsIdx_val_of_single rfl i q

theorem rhs_contr (i : S2048x80.Idx) (q : dot_S2048x20_S20x80_S2048x80_1_0_0_1_n_n.contr.Idx) :
    (dot_S2048x20_S20x80_S2048x80_1_0_0_1_n_n.rhsIdx i q 0).val = (q ⟨0, by decide⟩).val :=
  dot_S2048x20_S20x80_S2048x80_1_0_0_1_n_n.rhsIdx_val_of_single rfl i q

theorem rhs_free (i : S2048x80.Idx) (q : dot_S2048x20_S20x80_S2048x80_1_0_0_1_n_n.contr.Idx) :
    (dot_S2048x20_S20x80_S2048x80_1_0_0_1_n_n.rhsIdx i q 1).val = (i 1).val := by
  unfold DotDims.rhsIdx
  rw [dif_neg (show ¬(1 : Fin S20x80.rank) ∈ dot_S2048x20_S20x80_S2048x80_1_0_0_1_n_n.rhsBatch by decide),
    dif_pos (show (1 : Fin S20x80.rank) ∈ dot_S2048x20_S20x80_S2048x80_1_0_0_1_n_n.rhsNonContracting by decide)]
  rfl

/-- The 2048 x 20 by 20 x 80 product into the zero block, at (r, j): the sum over the 20 inner positions. -/
theorem matmul_mask_apply (a : FVec Ideal S2048x20 .bf16) (b : FVec Ideal S20x80 .bf16) (r : Fin 2048) (j : Fin 80) :
    FloatOps.matmul dot_S2048x20_S20x80_S2048x80_1_0_0_1_n_n none a b (constant (F := Ideal) S2048x80 .f32 0x00000000#32) (ix2 r j)
      = ∑ k : Fin 20, a (ix2 r k) * b (ix2 k j) := by
  rw [Ideal.matmul_constant_zero_apply,
    ← Equiv.sum_comp (contrEquiv1 dot_S2048x20_S20x80_S2048x80_1_0_0_1_n_n 20 rfl rfl).symm]
  refine Finset.sum_congr rfl fun k _ => ?_
  have hk := contrEquiv1_symm_val dot_S2048x20_S20x80_S2048x80_1_0_0_1_n_n 20 rfl rfl k
  have el : dot_S2048x20_S20x80_S2048x80_1_0_0_1_n_n.lhsIdx (ix2 r j)
      ((contrEquiv1 dot_S2048x20_S20x80_S2048x80_1_0_0_1_n_n 20 rfl rfl).symm k) = ix2 r k :=
    funext fun ax => Fin.ext (by
      match ax with
      | ⟨0, _⟩ => exact lhs_free (ix2 r j) _
      | ⟨1, _⟩ => exact (lhs_contr (ix2 r j) _).trans hk)
  have er : dot_S2048x20_S20x80_S2048x80_1_0_0_1_n_n.rhsIdx (ix2 r j)
      ((contrEquiv1 dot_S2048x20_S20x80_S2048x80_1_0_0_1_n_n 20 rfl rfl).symm k) = ix2 k j :=
    funext fun ax => Fin.ext (by
      match ax with
      | ⟨0, _⟩ => exact (rhs_contr (ix2 r j) _).trans hk
      | ⟨1, _⟩ => exact rhs_free (ix2 r j) _)
  rw [el, er]

/-- The sum over the 80 lanes of a row. -/
theorem lane_sum (src : FVec Ideal S2048x80 .f32) (h : S2048x80.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ c : Fin 80, src (ix2 r c) :=
  (Ideal.multiReduction_add_single src 0x00000000#32 h hφ hacc (ix1 r)).trans
    (Finset.sum_congr rfl fun c _ => congrArg src (funext fun a => Fin.ext (by
      match a with
      | ⟨0, _⟩ => rfl
      | ⟨1, _⟩ => rfl)))

/-- The sum over the 2048 rows of a column. -/
theorem row_sum (src : FVec Ideal S2048x1 .f32) (h : S2048x1.Reduces [0] S1) (hφ : FKind.Formats .f32)
    (hacc : (0x00000000#32 : BitVec 32) = 0x00000000#32) (a : Fin 1) :
    multiReduction (F := Ideal) .add [0] S1 src 0x00000000#32 h hφ hacc (ix1 a) = ∑ r : Fin 2048, src (ix2 r a) :=
  (Ideal.multiReduction_add_single src 0x00000000#32 h hφ hacc (ix1 a)).trans
    (Finset.sum_congr rfl fun r _ => congrArg src (funext fun ax => Fin.ext (by
      match ax with
      | ⟨0, _⟩ => rfl
      | ⟨1, _⟩ => rfl)))

/-- The tail the two regression payloads share: the lane sums, their sum over the rows, added to the accumulator. -/
theorem rows_total (src : FVec Ideal S2048x80 .f32) (acc : FVec Ideal S1x1 .f32) (j : S1x1.Idx)
    (h1 : S2048x80.Reduces [1] S2048) (hφ1 : FKind.Formats .f32) (ha1 : (0x00000000#32 : BitVec 32) = 0x00000000#32)
    (c1 : S2048.ShapeCasts S2048x1) (h2 : S2048x1.Reduces [0] S1) (hφ2 : FKind.Formats .f32)
    (ha2 : (0x00000000#32 : BitVec 32) = 0x00000000#32) (c2 : S1.ShapeCasts S1x1) (c3 : S1x1.ShapeCasts S1x1) :
    shapeCast S1x1 (addf acc (shapeCast S1x1 (multiReduction (F := Ideal) .add [0] S1
        (shapeCast S2048x1 (multiReduction (F := Ideal) .add [1] S2048 src 0x00000000#32 h1 hφ1 ha1) c1)
        0x00000000#32 h2 hφ2 ha2) c2)) c3 j
      = acc j + ∑ r : Fin 2048, ∑ c : Fin 80, src (ix2 r c) := by
  obtain ⟨a, b, rfl⟩ : ∃ (a b : Fin 1), j = ix2 a b := ⟨j 0, j 1, eq_ix2 j⟩
  rw [shapeCast_self]
  refine congrArg (acc (ix2 a b) + ·) ?_
  refine (Cert.LibKeepdims.shapeCast_a_a1_apply _ c2 a b).trans ?_
  refine (row_sum _ h2 hφ2 ha2 a).trans (Finset.sum_congr rfl fun r _ => ?_)
  exact (Cert.LibKeepdims.shapeCast_a_a1_apply _ c1 r a).trans (lane_sum src h1 hφ1 ha1 r)

/-! ## The foreground bits and the mask -/

/-- The foreground word of class 1 + k of row r: the comparison's bit, widened. -/
theorem pay9_apply (x0 : Vec Ideal S2048x21 .f32) (r : Fin 2048) (k : Fin 20) :
    k0_pay9 (F := Ideal) x0 (ix2 r k)
      = (Ideal.cmp .oeq (x0 (ix2 r ⟨1 + k.val, by omega⟩)) Cert.Spec.one).setWidth 32 := by
  have h : extractStridedSlice S2048x20 ![0, 1] (k0_pay5 (F := Ideal) x0) slices_S2048x21_o0_1_S2048x20 (ix2 r k)
      = x0 (ix2 r ⟨1 + k.val, by omega⟩) := by
    unfold k0_pay5
    rw [shapeCast_self]
    exact slice_scores x0 _ r k
  exact congrArg (fun t : EReal => (Ideal.cmp .oeq t Cert.Spec.one).setWidth 32) h

/-- THE MASK at (r, j): the foreground indicator of class 1 + j / 4 of row r. -/
theorem pay10_apply (x0 : Vec Ideal S2048x21 .f32) (x4 : Vec Ideal S20x80 .f32)
    (hx4 : ∀ (k : Fin 20) (j : Fin 80), x4 (ix2 k j) = if j.val / 4 = k.val then (1 : EReal) else 0) (r : Fin 2048) (j : Fin 80) :
    k0_pay10 (F := Ideal) (k0_pay9 (F := Ideal) x0) x4 (ix2 r j) = Cert.Spec.maskRow (fun c => x0 (ix2 r c)) j := by
  have hj : j.val / 4 < 20 := by have := j.isLt; omega
  refine (matmul_mask_apply _ _ r j).trans ?_
  rw [Finset.sum_eq_single (⟨j.val / 4, hj⟩ : Fin 20)]
  · show (((k0_pay9 (F := Ideal) x0 (ix2 r ⟨j.val / 4, hj⟩)).toInt : ℝ) : EReal) * x4 (ix2 ⟨j.val / 4, hj⟩ j) = _
    rw [hx4, if_pos rfl, mul_one, pay9_apply, sitofp_bit]
    rfl
  · intro k _ hk
    show (((k0_pay9 (F := Ideal) x0 (ix2 r k)).toInt : ℝ) : EReal) * x4 (ix2 k j) = 0
    rw [hx4, if_neg (fun h => hk (Fin.ext h.symm)), mul_zero]
  · intro h
    exact absurd (Finset.mem_univ _) h

/-! ## The two regression payloads -/

/-- The smooth-L1 payload: the accumulator plus the rows' smooth-L1 sums. -/
theorem pay11_apply (x0 : Vec Ideal S2048x21 .f32) (x2 x3 : Vec Ideal S2048x84 .f32) (x4 : Vec Ideal S20x80 .f32)
    (hx4 : ∀ (k : Fin 20) (j : Fin 80), x4 (ix2 k j) = if j.val / 4 = k.val then (1 : EReal) else 0) (acc : Vec Ideal S1x1 .f32) (j : S1x1.Idx) :
    k0_pay11 (F := Ideal) (k0_pay6 (F := Ideal) x2) (k0_pay7 (F := Ideal) x3) (k0_pay9 (F := Ideal) x0) x4 acc j
      = acc j + ∑ r : Fin 2048, Cert.Spec.slRow (fun c => x0 (ix2 r c)) (fun c => x2 (ix2 r c)) (fun c => x3 (ix2 r c)) := by
  refine (rows_total _ acc j _ _ _ _ _ _ _ _ _).trans ?_
  refine congrArg (acc j + ·) (Finset.sum_congr rfl fun r _ => ?_)
  unfold Cert.Spec.slRow
  refine Finset.sum_congr rfl fun c _ => ?_
  have hb : extractStridedSlice S2048x80 ![0, 4] (k0_pay6 (F := Ideal) x2) slices_S2048x84_o0_4_S2048x80 (ix2 r c)
      = x2 (ix2 r ⟨4 + c.val, by omega⟩) := by
    unfold k0_pay6
    rw [shapeCast_self]
    exact slice_deltas x2 _ r c
  have ha : extractStridedSlice S2048x80 ![0, 4] (k0_pay7 (F := Ideal) x3) slices_S2048x84_o0_4_S2048x80 (ix2 r c)
      = x3 (ix2 r ⟨4 + c.val, by omega⟩) := by
    unfold k0_pay7
    rw [shapeCast_self]
    exact slice_deltas x3 _ r c
  have hm := pay10_apply x0 x4 hx4 r c
  show Cert.Spec.sl1
      (extractStridedSlice S2048x80 ![0, 4] (k0_pay7 (F := Ideal) x3) slices_S2048x84_o0_4_S2048x80 (ix2 r c))
      (extractStridedSlice S2048x80 ![0, 4] (k0_pay6 (F := Ideal) x2) slices_S2048x84_o0_4_S2048x80 (ix2 r c))
      (k0_pay10 (F := Ideal) (k0_pay9 (F := Ideal) x0) x4 (ix2 r c)) = _
  rw [ha, hb, hm]

/-- The foreground-count payload: the accumulator plus the rows' sums of floor (mask / 4). -/
theorem pay12_apply (x0 : Vec Ideal S2048x21 .f32) (x4 : Vec Ideal S20x80 .f32)
    (hx4 : ∀ (k : Fin 20) (j : Fin 80), x4 (ix2 k j) = if j.val / 4 = k.val then (1 : EReal) else 0) (acc : Vec Ideal S1x1 .f32) (j : S1x1.Idx) :
    k0_pay12 (F := Ideal) (k0_pay9 (F := Ideal) x0) x4 acc j = acc j + ∑ r : Fin 2048, Cert.Spec.mfRow (fun c => x0 (ix2 r c)) := by
  refine (rows_total _ acc j _ _ _ _ _ _ _ _ _).trans ?_
  refine congrArg (acc j + ·) (Finset.sum_congr rfl fun r _ => ?_)
  unfold Cert.Spec.mfRow
  refine Finset.sum_congr rfl fun c _ => ?_
  have hm := pay10_apply x0 x4 hx4 r c
  show Ideal.liftRound Int.floor (Ideal.div (k0_pay10 (F := Ideal) (k0_pay9 (F := Ideal) x0) x4 (ix2 r c)) Cert.Spec.four) = _
  rw [hm]

end Cert.KernelMask

end
-- ==== Proof.LibBlockSum.lean ====
/-
  A sum over a contraction axis cut into equal blocks: adding up, block after block, the sum over each block's positions
  gives the sum over the whole axis. Only commutativity and associativity of addition are used, so it holds in any
  commutative additive monoid — the extended reals included, infinities and all.
-/
import Mathlib.Algebra.BigOperators.Fin
import Mathlib.Algebra.BigOperators.Intervals

open scoped BigOperators

namespace LibBlockSum

/-- `a` consecutive blocks of `b` positions each make up the first `a * b` positions. -/
theorem sum_range_blocks {M : Type*} [AddCommMonoid M] (f : ℕ → M) (b : ℕ) :
    ∀ a : ℕ, ∑ s ∈ Finset.range a, ∑ j ∈ Finset.range b, f (b * s + j) = ∑ k ∈ Finset.range (a * b), f k
  | 0 => by simp
  | a + 1 => by
    rw [Finset.sum_range_succ, sum_range_blocks f b a, Nat.succ_mul, Finset.sum_range_add, Nat.mul_comm b a]

/-- The same with each block and the whole axis indexed by `Fin`. -/
theorem sum_blocks {M : Type*} [AddCommMonoid M] (f : ℕ → M) (a b : ℕ) :
    ∑ s ∈ Finset.range a, ∑ j : Fin b, f (b * s + j.val) = ∑ k : Fin (a * b), f k.val := by
  rw [Fin.sum_univ_eq_sum_range (fun k => f k) (a * b), ← sum_range_blocks f b a]
  exact Finset.sum_congr rfl fun s _ => Fin.sum_univ_eq_sum_range (fun j => f (b * s + j)) b

end LibBlockSum
-- ==== Proof.Accumulate.lean ====
import proofs.«177230_j87917980549798_1_alg».proof.Proof.Cases
import proofs.«177230_j87917980549798_1_alg».proof.Proof.Blocks
import proofs.«177230_j87917980549798_1_alg».proof.Proof.KernelCE
import proofs.«177230_j87917980549798_1_alg».proof.Proof.KernelMask
import proofs.«177230_j87917980549798_1_alg».proof.Proof.LibBlockSum
import proofs.«177230_j87917980549798_1_alg».proof.Proof.Spec

/-!
  The accumulation, closed: after grid point `n` each of the three accumulators holds the sum, over the rows of the
  blocks `0 … n`, of that row's term; after the last point they hold the sums over all 262144 rows, and the output
  block holds the loss. Only commutativity and associativity of the extended reals' addition is used.
-/

noncomputable section

namespace Cert.KernelIdeal.Acc

open Cert.KernelIdeal Cert.KernelIdeal.Gen Idealize.ShloMosaic Idealize.ShloMosaic.TcCoe Idealize.SL.Sem
open Idealize.ShloMosaic.ValueIdx Cert.Spec Cert.KernelIdeal.Blocks Cert.KernelIdeal.Cases
open scoped BigOperators

variable (m : (ℓ : Loc nD τ sig) → Buf (Elt Ideal) ℓ)

/-- Row `k`'s cross-entropy term (zero past the last row). -/
def ceAt (c : Dev nD) (k : ℕ) : EReal :=
  if h : k < 262144 then ceRow (row21 (m ((c : Thread nD τ).loc main_arg1)) ⟨k, h⟩) (row21 (m ((c : Thread nD τ).loc main_arg3)) ⟨k, h⟩) else 0
/-- Row `k`'s smooth-L1 term. -/
def slAt (c : Dev nD) (k : ℕ) : EReal :=
  if h : k < 262144 then slRow (row21 (m ((c : Thread nD τ).loc main_arg1)) ⟨k, h⟩) (row84 (m ((c : Thread nD τ).loc main_arg0)) ⟨k, h⟩) (row84 (m ((c : Thread nD τ).loc main_arg2)) ⟨k, h⟩) else 0
/-- Row `k`'s floor term. -/
def mfAt (c : Dev nD) (k : ℕ) : EReal :=
  if h : k < 262144 then mfRow (row21 (m ((c : Thread nD τ).loc main_arg1)) ⟨k, h⟩) else 0

theorem rowOf_lt (t : Fin cfg0.N) (r : Fin 2048) : 2048 * t.val + r.val < 262144 := (rowOf t r).isLt

/-- The target-scores rows of block `t`. -/
theorem rows0 (c : Dev nD) (t : Fin cfg0.N) (r : Fin 2048) :
    (fun q => (iblk m c 0 t : Vec Ideal S2048x21 .f32) (ix2 r q)) = row21 (m ((c : Thread nD τ).loc main_arg1)) (rowOf t r) :=
  funext fun q => iblk0_apply m c t r q
theorem rows1 (c : Dev nD) (t : Fin cfg0.N) (r : Fin 2048) :
    (fun q => (iblk m c 1 t : Vec Ideal S2048x21 .f32) (ix2 r q)) = row21 (m ((c : Thread nD τ).loc main_arg3)) (rowOf t r) :=
  funext fun q => iblk1_apply m c t r q
theorem rows2 (c : Dev nD) (t : Fin cfg0.N) (r : Fin 2048) :
    (fun q => (iblk m c 2 t : Vec Ideal S2048x84 .f32) (ix2 r q)) = row84 (m ((c : Thread nD τ).loc main_arg0)) (rowOf t r) :=
  funext fun q => iblk2_apply m c t r q
theorem rows3 (c : Dev nD) (t : Fin cfg0.N) (r : Fin 2048) :
    (fun q => (iblk m c 3 t : Vec Ideal S2048x84 .f32) (ix2 r q)) = row84 (m ((c : Thread nD τ).loc main_arg2)) (rowOf t r) :=
  funext fun q => iblk3_apply m c t r q

/-- The table's block at any point is the 0/1 table. -/
theorem table (c : Dev nD) (t : Fin cfg0.N) (k : Fin 20) (j : Fin 80) :
    (iblk m c 4 t : Vec Ideal S20x80 .f32) (ix2 k j) = if j.val / 4 = k.val then (1 : EReal) else 0 :=
  (iblk4_apply m c t k j).trans (Cert.KernelMask.lit_table k j)

/-- Block `t`'s contribution to the cross-entropy total is the sum of its rows' terms. -/
theorem ce_step (c : Dev nD) (t : Fin cfg0.N) (a : Vec Ideal S1x1 .f32) (j : S1x1.Idx) :
    k0_pay8 (F := Ideal) (iblk m c 0 t) (iblk m c 1 t) a j = a j + ∑ r : Fin 2048, ceAt m c (2048 * t.val + r.val) := by
  refine (Cert.KernelCE.pay8_apply (iblk m c 0 t) (iblk m c 1 t) a j).trans (congrArg (a j + ·) ?_)
  refine Finset.sum_congr rfl fun r _ => ?_
  have e : ceRow (fun q => (iblk m c 0 t : Vec Ideal S2048x21 .f32) (ix2 r q)) (fun q => (iblk m c 1 t : Vec Ideal S2048x21 .f32) (ix2 r q))
      = ceRow (row21 (m ((c : Thread nD τ).loc main_arg1)) (rowOf t r)) (row21 (m ((c : Thread nD τ).loc main_arg3)) (rowOf t r)) := by
    rw [rows0 m c t r, rows1 m c t r]
  exact e.trans (by unfold ceAt; rw [dif_pos (rowOf_lt t r)])

/-- Block `t`'s contribution to the smooth-L1 total. -/
theorem sl_step (c : Dev nD) (t : Fin cfg0.N) (a : Vec Ideal S1x1 .f32) (j : S1x1.Idx) :
    k0_pay11 (F := Ideal) (k0_pay6 (F := Ideal) (iblk m c 2 t)) (k0_pay7 (F := Ideal) (iblk m c 3 t)) (k0_pay9 (F := Ideal) (iblk m c 0 t)) (iblk m c 4 t) a j
      = a j + ∑ r : Fin 2048, slAt m c (2048 * t.val + r.val) := by
  refine (Cert.KernelMask.pay11_apply (iblk m c 0 t) (iblk m c 2 t) (iblk m c 3 t) (iblk m c 4 t) (table m c t) a j).trans (congrArg (a j + ·) ?_)
  refine Finset.sum_congr rfl fun r _ => ?_
  have e : slRow (fun q => (iblk m c 0 t : Vec Ideal S2048x21 .f32) (ix2 r q)) (fun q => (iblk m c 2 t : Vec Ideal S2048x84 .f32) (ix2 r q)) (fun q => (iblk m c 3 t : Vec Ideal S2048x84 .f32) (ix2 r q))
      = slRow (row21 (m ((c : Thread nD τ).loc main_arg1)) (rowOf t r)) (row84 (m ((c : Thread nD τ).loc main_arg0)) (rowOf t r)) (row84 (m ((c : Thread nD τ).loc main_arg2)) (rowOf t r)) := by
    rw [rows0 m c t r, rows2 m c t r, rows3 m c t r]
  exact e.trans (by unfold slAt; rw [dif_pos (rowOf_lt t r)])

/-- Block `t`'s contribution to the floor total. -/
theorem mf_step (c : Dev nD) (t : Fin cfg0.N) (a : Vec Ideal S1x1 .f32) (j : S1x1.Idx) :
    k0_pay12 (F := Ideal) (k0_pay9 (F := Ideal) (iblk m c 0 t)) (iblk m c 4 t) a j
      = a j + ∑ r : Fin 2048, mfAt m c (2048 * t.val + r.val) := by
  refine (Cert.KernelMask.pay12_apply (iblk m c 0 t) (iblk m c 4 t) (table m c t) a j).trans (congrArg (a j + ·) ?_)
  refine Finset.sum_congr rfl fun r _ => ?_
  have e : mfRow (fun q => (iblk m c 0 t : Vec Ideal S2048x21 .f32) (ix2 r q)) = mfRow (row21 (m ((c : Thread nD τ).loc main_arg1)) (rowOf t r)) := by
    rw [rows0 m c t r]
  exact e.trans (by unfold mfAt; rw [dif_pos (rowOf_lt t r)])

/-- THE TOTALS after point `n`: the rows of blocks `0 … n`, summed. By induction on the point. -/
theorem outsAt_eq (c : Dev nD) : ∀ (n : ℕ) (h : n < cfg0.N) (j : S1x1.Idx),
    (outsAt0 m c n h).2.1 j = ∑ s ∈ Finset.range (n + 1), ∑ r : Fin 2048, ceAt m c (2048 * s + r.val)
    ∧ (outsAt0 m c n h).2.2.1 j = ∑ s ∈ Finset.range (n + 1), ∑ r : Fin 2048, slAt m c (2048 * s + r.val)
    ∧ (outsAt0 m c n h).2.2.2 j = ∑ s ∈ Finset.range (n + 1), ∑ r : Fin 2048, mfAt m c (2048 * s + r.val)
  | 0, h, j => by
    have hA := outsAt_A m c ⟨0, h⟩ (Nat.zero_mod _) (by show ¬(0 % 128 = 127); decide)
    refine ⟨?_, ?_, ?_⟩
    · refine (congrFun hA.1 j).trans ?_
      rw [ce_step, Cert.KernelCE.pay2_apply, zero_add, Finset.sum_range_one]
    · refine (congrFun hA.2.1 j).trans ?_
      rw [sl_step, Cert.KernelCE.pay3_apply, zero_add, Finset.sum_range_one]
    · refine (congrFun hA.2.2 j).trans ?_
      rw [mf_step, Cert.KernelCE.pay4_apply, zero_add, Finset.sum_range_one]
  | n + 1, h, j => by
    have hN : cfg0.N = 128 := N_0
    have h0 : ¬(⟨n + 1, h⟩ : Fin cfg0.N).val % 128 = 0 := by dsimp only; omega
    have ih := outsAt_eq c n (Nat.lt_of_succ_lt h) j
    have hstep : (outsAt0 m c (n + 1) h).2.1 = k0_pay8 (F := Ideal) (iblk m c 0 ⟨n + 1, h⟩) (iblk m c 1 ⟨n + 1, h⟩) (outsAt0 m c n (Nat.lt_of_succ_lt h)).2.1
        ∧ (outsAt0 m c (n + 1) h).2.2.1 = k0_pay11 (F := Ideal) (k0_pay6 (F := Ideal) (iblk m c 2 ⟨n + 1, h⟩)) (k0_pay7 (F := Ideal) (iblk m c 3 ⟨n + 1, h⟩)) (k0_pay9 (F := Ideal) (iblk m c 0 ⟨n + 1, h⟩)) (iblk m c 4 ⟨n + 1, h⟩) (outsAt0 m c n (Nat.lt_of_succ_lt h)).2.2.1
        ∧ (outsAt0 m c (n + 1) h).2.2.2 = k0_pay12 (F := Ideal) (k0_pay9 (F := Ideal) (iblk m c 0 ⟨n + 1, h⟩)) (iblk m c 4 ⟨n + 1, h⟩) (outsAt0 m c n (Nat.lt_of_succ_lt h)).2.2.2 := by
      by_cases h1 : (⟨n + 1, h⟩ : Fin cfg0.N).val % 128 = 127
      · exact (outsAt_C m c ⟨n + 1, h⟩ h0 h1).2
      · exact outsAt_B m c ⟨n + 1, h⟩ h0 h1
    refine ⟨?_, ?_, ?_⟩
    · refine (congrFun hstep.1 j).trans ?_
      rw [ce_step, ih.1, Finset.sum_range_succ _ (n + 1)]
    · refine (congrFun hstep.2.1 j).trans ?_
      rw [sl_step, ih.2.1, Finset.sum_range_succ _ (n + 1)]
    · refine (congrFun hstep.2.2 j).trans ?_
      rw [mf_step, ih.2.2, Finset.sum_range_succ _ (n + 1)]

/-- 128 blocks of 2048 rows are the 262144 rows. -/
theorem ce_total (c : Dev nD) : ∑ s ∈ Finset.range 128, ∑ r : Fin 2048, ceAt m c (2048 * s + r.val)
    = ∑ R : Fin 262144, ceRow (row21 (m ((c : Thread nD τ).loc main_arg1)) R) (row21 (m ((c : Thread nD τ).loc main_arg3)) R) := by
  rw [LibBlockSum.sum_blocks (ceAt m c) 128 2048]
  exact Finset.sum_congr rfl fun R _ => dif_pos R.isLt
theorem sl_total (c : Dev nD) : ∑ s ∈ Finset.range 128, ∑ r : Fin 2048, slAt m c (2048 * s + r.val)
    = ∑ R : Fin 262144, slRow (row21 (m ((c : Thread nD τ).loc main_arg1)) R) (row84 (m ((c : Thread nD τ).loc main_arg0)) R) (row84 (m ((c : Thread nD τ).loc main_arg2)) R) := by
  rw [LibBlockSum.sum_blocks (slAt m c) 128 2048]
  exact Finset.sum_congr rfl fun R _ => dif_pos R.isLt
theorem mf_total (c : Dev nD) : ∑ s ∈ Finset.range 128, ∑ r : Fin 2048, mfAt m c (2048 * s + r.val)
    = ∑ R : Fin 262144, mfRow (row21 (m ((c : Thread nD τ).loc main_arg1)) R) := by
  rw [LibBlockSum.sum_blocks (mfAt m c) 128 2048]
  exact Finset.sum_congr rfl fun R _ => dif_pos R.isLt

/-- The last grid point. -/
abbrev tLast : Fin cfg0.N := ⟨127, by rw [show cfg0.N = 128 from N_0]; decide⟩

/-- THE OUTPUT BLOCK after the last point is the loss of the four argument arrays. -/
theorem out_last (c : Dev nD) (j : S1x1.Idx) :
    (outsAt0 m c tLast.val tLast.isLt).1 j = loss (m ((c : Thread nD τ).loc main_arg0)) (m ((c : Thread nD τ).loc main_arg1)) (m ((c : Thread nD τ).loc main_arg2)) (m ((c : Thread nD τ).loc main_arg3)) := by
  have hC := outsAt_C m c tLast (by decide) rfl
  have e := outsAt_eq m c 127 tLast.isLt j
  rw [congrFun hC.1 j, Cert.KernelCE.pay1_apply, ← congrFun hC.2.1 j, ← congrFun hC.2.2.1 j, ← congrFun hC.2.2.2 j]
  show lossOf ((outsAt0 m c 127 tLast.isLt).2.1 j) ((outsAt0 m c 127 tLast.isLt).2.2.1 j) ((outsAt0 m c 127 tLast.isLt).2.2.2 j) = _
  rw [e.1, e.2.1, e.2.2, ce_total, sl_total, mf_total]
  rfl

end Cert.KernelIdeal.Acc

end
-- ==== Proof.KernelRun.lean ====
import proofs.«177230_j87917980549798_1_alg».proof.Proof.Accumulate
import Idealize.ShloMosaic.Lib.Pipeline.Value
import Idealize.ShloMosaic.Lib.StableHlo.Run
import Idealize.ShloMosaic.Lib.Tactic

/-!
  The kernel program's run, read: the one-entry result array is written back once, after the last grid point, with
  the loss of the argument arrays; the host's closing reshape of that [1, 1] array to a scalar keeps the entry.
-/

noncomputable section

namespace Cert.KernelIdeal.RunValue

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx Cert.Spec Cert.KernelIdeal.Acc

variable (m : (ℓ : Loc nD τ sig) → Buf (Elt Ideal) ℓ) (ρ : Dev nD → PrngReg)

/-- The loss of the launch contents of the four arguments on core `c`. -/
abbrev lossAt (c : Dev nD) : EReal := loss (m ((c : Thread nD τ).loc main_arg0)) (m ((c : Thread nD τ).loc main_arg1)) (m ((c : Thread nD τ).loc main_arg2)) (m ((c : Thread nD τ).loc main_arg3))

/-- The result array's final contents: its one entry is the loss. -/
abbrev result (c : Dev nD) : Buf (Elt Ideal) ((c : Thread nD τ).loc main_v4) := fun _ => lossAt m c

/-- The one write-back, after the last point, writes it. -/
theorem flushed_eq (c : Dev nD) (t : Fin cfg0.N) (hf : (cfg0.win 5).flush t = true) :
    (dats m 0 c).flushed 5 t = ((cfg0.win 5).blk t).view.read (Elt Ideal) (result m c) := by
  have hN : cfg0.N = 128 := N_0
  have h127 : t.val = 127 := by have := (flush0_5 t).mp hf; have := t.isLt; omega
  obtain rfl : t = tLast := Fin.ext h127
  show (cfg0.win 5).cut (grid0.coords tLast) ((dats m 0 c).after 5 tLast) = _
  rw [after0_5]
  have e : (outsAt0 m c tLast.val tLast.isLt).1 = result m c := funext fun j => out_last m c j
  rw [e]
  have hz' : (fun a => win0_5.index tLast a * main_v4.ty.shape.size a) = fun _ => 0 := funext fun a => by fin_cases a <;> decide +kernel
  exact (Memref.read_access_unit_zero (Elt Ideal) main_v4 hz' (fun a => by rw [congrFun hz' a]; simp) (result m c)).symm

/-- So the result array ends holding the loss: the last point's block is the whole array. -/
theorem final_o (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v4).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The scalar the closing reshape leaves: the result array's entry. -/
theorem tail_eq (c : Dev nD) :
    Pipeline.afterTail₀ cfgs (dats m) 0 (V0 m) [hostOps1] c main_v5 = fun _ => lossAt m c := by
  unfold Pipeline.afterTail₀
  show StableHlo.after hostOps1 _ (Proc.devRef .tc main_v5) = _
  after_results
  rw [(Pipeline.withArrays_arr spec0 launch0.win.arr_inj c _ _ 5).trans (final_o m c)]
  rfl

/-- THE RUN, READ: the scalar result at the loss of the arguments, the arguments unchanged. -/
theorem run : θ_run defs (onTc (τ := τ) (main (F := Ideal))) ⟨m, fun _ => 0, ρ⟩ fun r => ∀ c : Dev nD,
      r.2.mem ((c.tc : Thread nD τ).loc main_v5) = (fun _ => lossAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefSide.lean ====
/-
  The reference program's value is the specified loss.

  The reference flattens the scores to rows, normalises each row of predicted scores by its sum, clips, takes the
  logarithm, weights by the target scores and adds up the negated row sums; it masks the last 80 delta coordinates
  by the foreground indicator of class `1 + j / 4`, takes the smooth L1 of the masked difference and adds up; and it
  adds up the floors of a quarter of the mask. Each stage is read at one row (or one coordinate of one row), the
  totals are re-indexed by rows, and the three totals are combined as the specification combines them.
-/
import proofs.«177230_j87917980549798_1_alg».proof.Proof.Gen.ReferenceIdeal.Read
import proofs.«177230_j87917980549798_1_alg».proof.Proof.Spec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx Cert.Spec
open scoped BigOperators

/-! ## Sums over index sets, coordinate by coordinate -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A row number is its batch and region coordinates: `R = 32768 b + n`. -/
def rowEquiv : Fin 262144 ≃ Fin 8 × Fin 32768 where
  toFun R := (rowB R, rowN R)
  invFun p := ⟨p.1.val * 32768 + p.2.val, by have h1 := p.1.isLt; have h2 := p.2.isLt; omega⟩
  left_inv R := Fin.ext (by show R.val / 32768 * 32768 + R.val % 32768 = R.val; omega)
  right_inv p := by
    obtain ⟨a, b⟩ := p
    have ha := a.isLt
    have hb := b.isLt
    refine Prod.ext (Fin.ext ?_) (Fin.ext ?_)
    · show (a.val * 32768 + b.val) / 32768 = a.val
      omega
    · show (a.val * 32768 + b.val) % 32768 = b.val
      omega

/-- A double sum over batch and region is the sum over the rows. -/
theorem sum_rows {M : Type*} [AddCommMonoid M] (g : Fin 8 → Fin 32768 → M) :
    ∑ a : Fin 8, ∑ b : Fin 32768, g a b = ∑ R : Fin 262144, g (rowB R) (rowN R) := by
  rw [← Fintype.sum_prod_type' g]
  exact (Equiv.sum_comp rowEquiv (fun p : Fin 8 × Fin 32768 => g p.1 p.2)).symm

/-- A sum over the `8 x 32768 x 80` index set, row by row. -/
theorem sum_idx3_rows {M : Type*} [AddCommMonoid M] (f : (⟨3, ![8, 32768, 80]⟩ : Shape).Idx → M) :
    ∑ i, f i = ∑ R : Fin 262144, ∑ j : Fin 80, f (ix3 (rowB R) (rowN R) j) := by
  rw [sum_idx3]
  exact sum_rows (fun a b => ∑ j : Fin 80, f (ix3 a b j))

/-! ## The cross-entropy stages at a row -/

/-- The predicted scores, flattened to rows, at row `R` and class `c`. -/
theorem v1_at (x3 : (⟨S8x32768x21, .f32⟩ : BufTy).Contents (Elt Ideal)) (R : Fin 262144) (c : Fin 21) :
    val_main_v1 (F := Ideal) x3 (ix2 R c) = x3 (ix3 (rowB R) (rowN R) c) := by
  rw [val_main_v1_apply]
  have hR := R.isLt
  have hc := c.isLt
  refine congrArg x3 (funext fun a => ?_)
  match a with
  | ⟨0, _⟩ => exact Fin.ext (by show (R.val * 21 + c.val) / 688128 = R.val / 32768; omega)
  | ⟨1, _⟩ => exact Fin.ext (by show (R.val * 21 + c.val) / 21 % 32768 = R.val % 32768; omega)
  | ⟨2, _⟩ => exact Fin.ext (by show (R.val * 21 + c.val) % 21 = c.val; omega)

/-- The target scores, flattened to rows, at row `R` and class `c`. -/
theorem v0_at (x1 : (⟨S8x32768x21, .f32⟩ : BufTy).Contents (Elt Ideal)) (R : Fin 262144) (c : Fin 21) :
    val_main_v0 (F := Ideal) x1 (ix2 R c) = x1 (ix3 (rowB R) (rowN R) c) := by
  rw [val_main_v0_apply]
  have hR := R.isLt
  have hc := c.isLt
  refine congrArg x1 (funext fun a => ?_)
  match a with
  | ⟨0, _⟩ => exact Fin.ext (by show (R.val * 21 + c.val) / 688128 = R.val / 32768; omega)
  | ⟨1, _⟩ => exact Fin.ext (by show (R.val * 21 + c.val) / 21 % 32768 = R.val % 32768; omega)
  | ⟨2, _⟩ => exact Fin.ext (by show (R.val * 21 + c.val) % 21 = c.val; omega)

/-- The row sum of the predicted scores. -/
theorem v2_at (x3 : (⟨S8x32768x21, .f32⟩ : BufTy).Contents (Elt Ideal)) (R : Fin 262144) :
    val_main_v2 (F := Ideal) x3 (ix1 R) = ∑ c : Fin 21, x3 (ix3 (rowB R) (rowN R) c) := by
  rw [val_main_v2_apply, val_main_cst_apply, Ideal.ofBits_def, Ideal.ofBits_zero_f32, zero_add]
  refine Finset.sum_congr rfl fun c _ => ?_
  have h : idx_main_v2 (ix1 R) c = ix2 R c :=
    funext fun a => by match a with | ⟨0, _⟩ => rfl | ⟨1, _⟩ => rfl
  rw [h, v1_at]

/-- The row sum broadcast back along the classes. -/
theorem v4_at (x3 : (⟨S8x32768x21, .f32⟩ : BufTy).Contents (Elt Ideal)) (R : Fin 262144) (c : Fin 21) :
    val_main_v4 (F := Ideal) x3 (ix2 R c) = val_main_v2 (F := Ideal) x3 (ix1 R) := by
  rw [val_main_v4_apply, val_main_v3_apply]
  exact congrArg (val_main_v2 (F := Ideal) x3) (funext fun a => by match a with | ⟨0, _⟩ => rfl)

/-- The logarithm of the clipped normalised score. -/
theorem v7_at (x3 : (⟨S8x32768x21, .f32⟩ : BufTy).Contents (Elt Ideal)) (R : Fin 262144) (c : Fin 21) :
    val_main_v7 (F := Ideal) x3 (ix2 R c)
      = Ideal.log (min hi (max lo (Ideal.div (row21 x3 R c) (∑ c' : Fin 21, row21 x3 R c')))) := by
  rw [val_main_v7_apply, val_main_v6_apply, val_main_call0_v4_apply, val_main_call0_v3_apply, val_main_cst_1_apply,
    val_main_call0_v2_apply, val_main_call0_v1_apply, val_main_call0_v0_apply, val_main_cst_0_apply,
    val_main_v5_apply, v1_at, v4_at, v2_at]
  rfl

/-- The negated row sum is the row's cross-entropy term. -/
theorem v10_at (x1 x3 : (⟨S8x32768x21, .f32⟩ : BufTy).Contents (Elt Ideal)) (R : Fin 262144) :
    val_main_v10 (F := Ideal) x1 x3 (ix1 R) = ceRow (row21 x1 R) (row21 x3 R) := by
  rw [val_main_v10_apply, val_main_v9_apply, val_main_cst_2_apply, Ideal.ofBits_def, Ideal.ofBits_zero_f32, zero_add,
    Ideal.hostNegf_def, Ideal.negf_def]
  unfold ceRow
  rw [zero_sub]
  refine congrArg Neg.neg (Finset.sum_congr rfl fun c _ => ?_)
  have h : idx_main_v9 (ix1 R) c = ix2 R c :=
    funext fun a => by match a with | ⟨0, _⟩ => rfl | ⟨1, _⟩ => rfl
  rw [h, val_main_v8_apply, v0_at, v7_at]
  rfl

/-- The total of the rows' cross-entropy terms. -/
theorem v11_at (x1 x3 : (⟨S8x32768x21, .f32⟩ : BufTy).Contents (Elt Ideal)) (i : S_.Idx) :
    val_main_v11 (F := Ideal) x1 x3 i = ∑ R : Fin 262144, ceRow (row21 x1 R) (row21 x3 R) := by
  rw [val_main_v11_apply, val_main_cst_3_apply, Ideal.ofBits_def, Ideal.ofBits_zero_f32, zero_add]
  exact (sum_idx1 (n := 262144) _).trans (Finset.sum_congr rfl fun R _ => v10_at x1 x3 R)

/-! ## The regression stages at a coordinate -/

/-- The regression mask: coordinate `j` reads the foreground indicator of class `1 + j / 4`. -/
theorem v20_at (x1 : (⟨S8x32768x21, .f32⟩ : BufTy).Contents (Elt Ideal)) (a : Fin 8) (b : Fin 32768) (j : Fin 80) :
    val_main_v20 (F := Ideal) x1 (ix3 a b j) = fgOf (x1 (ix3 a b (⟨1 + j.val / 4, by omega⟩ : Fin 21))) := by
  rw [val_main_v20_apply, val_main_v19_apply, val_main_v18_apply, val_main_v17_apply, val_main_v15_apply,
    val_main_v16_apply, val_main_cst_5_apply]
  have ha := a.isLt
  have hb := b.isLt
  have hj := j.isLt
  have h : idx_main_v15 (idx_main_v19 (idx_main_v20 (ix3 a b j))) = ix3 a b (⟨1 + j.val / 4, by omega⟩ : Fin 21) :=
    funext fun d => by
      match d with
      | ⟨0, _⟩ => exact Fin.ext (by show ((a.val * 32768 + b.val) * 80 + j.val) / 2621440 = a.val; omega)
      | ⟨1, _⟩ => exact Fin.ext (by show ((a.val * 32768 + b.val) * 80 + j.val) / 80 % 32768 = b.val; omega)
      | ⟨2, _⟩ => exact Fin.ext (by show 1 + ((a.val * 32768 + b.val) * 80 + j.val) / 4 % 20 = 1 + j.val / 4; omega)
  rw [h]
  rfl

/-- The target deltas' slice at coordinate `j` reads coordinate `4 + j`. -/
theorem v13_at (x0 : (⟨S8x32768x84, .f32⟩ : BufTy).Contents (Elt Ideal)) (a : Fin 8) (b : Fin 32768) (j : Fin 80) :
    val_main_v13 (F := Ideal) x0 (ix3 a b j) = x0 (ix3 a b (⟨4 + j.val, by omega⟩ : Fin 84)) := by
  rw [val_main_v13_apply]
  exact congrArg x0 (funext fun d => by match d with | ⟨0, _⟩ => rfl | ⟨1, _⟩ => rfl | ⟨2, _⟩ => rfl)

/-- The predicted deltas' slice at coordinate `j` reads coordinate `4 + j`. -/
theorem v14_at (x2 : (⟨S8x32768x84, .f32⟩ : BufTy).Contents (Elt Ideal)) (a : Fin 8) (b : Fin 32768) (j : Fin 80) :
    val_main_v14 (F := Ideal) x2 (ix3 a b j) = x2 (ix3 a b (⟨4 + j.val, by omega⟩ : Fin 84)) := by
  rw [val_main_v14_apply]
  exact congrArg x2 (funext fun d => by match d with | ⟨0, _⟩ => rfl | ⟨1, _⟩ => rfl | ⟨2, _⟩ => rfl)

/-- The absolute value of the masked difference of a predicted delta `a` and a target delta `b`. -/
def absd (a b mk : EReal) : EReal := max (a * mk - b * mk) (-(a * mk - b * mk))

/-- The smooth L1 in terms of the absolute masked difference. -/
theorem sl1_eq (a b mk : EReal) :
    sl1 a b mk = Scalar.select (Ideal.cmp .olt (absd a b mk) one) (half * absd a b mk * absd a b mk) (absd a b mk - half) :=
  rfl

/-- The absolute masked difference at a coordinate. -/
theorem v24_at (x0 : (⟨S8x32768x84, .f32⟩ : BufTy).Contents (Elt Ideal)) (x1 : (⟨S8x32768x21, .f32⟩ : BufTy).Contents (Elt Ideal))
    (x2 : (⟨S8x32768x84, .f32⟩ : BufTy).Contents (Elt Ideal)) (a : Fin 8) (b : Fin 32768) (j : Fin 80) :
    val_main_v24 (F := Ideal) x0 x1 x2 (ix3 a b j)
      = absd (x2 (ix3 a b (⟨4 + j.val, by omega⟩ : Fin 84))) (x0 (ix3 a b (⟨4 + j.val, by omega⟩ : Fin 84)))
          (fgOf (x1 (ix3 a b (⟨1 + j.val / 4, by omega⟩ : Fin 21)))) := by
  rw [val_main_v24_apply, val_main_v23_apply, val_main_v21_apply, val_main_v22_apply, v14_at, v13_at, v20_at]
  rfl

/-- The smooth L1 at a coordinate. -/
theorem v32_at (x0 : (⟨S8x32768x84, .f32⟩ : BufTy).Contents (Elt Ideal)) (x1 : (⟨S8x32768x21, .f32⟩ : BufTy).Contents (Elt Ideal))
    (x2 : (⟨S8x32768x84, .f32⟩ : BufTy).Contents (Elt Ideal)) (a : Fin 8) (b : Fin 32768) (j : Fin 80) :
    val_main_v32 (F := Ideal) x0 x1 x2 (ix3 a b j)
      = sl1 (x2 (ix3 a b (⟨4 + j.val, by omega⟩ : Fin 84))) (x0 (ix3 a b (⟨4 + j.val, by omega⟩ : Fin 84)))
          (fgOf (x1 (ix3 a b (⟨1 + j.val / 4, by omega⟩ : Fin 21)))) := by
  rw [val_main_v32_apply, val_main_v26_apply, val_main_v29_apply, val_main_v28_apply, val_main_v31_apply,
    val_main_v25_apply, val_main_v27_apply, val_main_v30_apply, val_main_cst_6_apply, val_main_cst_7_apply,
    val_main_cst_8_apply, v24_at, sl1_eq]
  rfl

/-- The floor of a quarter of the mask at a coordinate. -/
theorem v35_at (x1 : (⟨S8x32768x21, .f32⟩ : BufTy).Contents (Elt Ideal)) (a : Fin 8) (b : Fin 32768) (j : Fin 80) :
    val_main_v35 (F := Ideal) x1 (ix3 a b j)
      = Ideal.liftRound Int.floor (Ideal.div (fgOf (x1 (ix3 a b (⟨1 + j.val / 4, by omega⟩ : Fin 21)))) four) := by
  rw [val_main_v35_apply, val_main_v34_apply, val_main_v33_apply, val_main_cst_9_apply, v20_at]
  rfl

/-- The total of the smooth L1 terms, row by row. -/
theorem v38_at (x0 : (⟨S8x32768x84, .f32⟩ : BufTy).Contents (Elt Ideal)) (x1 : (⟨S8x32768x21, .f32⟩ : BufTy).Contents (Elt Ideal))
    (x2 : (⟨S8x32768x84, .f32⟩ : BufTy).Contents (Elt Ideal)) (i : S_.Idx) :
    val_main_v38 (F := Ideal) x0 x1 x2 i = ∑ R : Fin 262144, slRow (row21 x1 R) (row84 x0 R) (row84 x2 R) := by
  rw [val_main_v38_apply, val_main_cst_12_apply, Ideal.ofBits_def, Ideal.ofBits_zero_f32, zero_add]
  refine (sum_idx3_rows _).trans (Finset.sum_congr rfl fun R _ => ?_)
  unfold slRow
  exact Finset.sum_congr rfl fun j _ => v32_at x0 x1 x2 (rowB R) (rowN R) j

/-- The regression denominator's total, row by row. -/
theorem v36_at (x1 : (⟨S8x32768x21, .f32⟩ : BufTy).Contents (Elt Ideal)) (i : S_.Idx) :
    val_main_v36 (F := Ideal) x1 i = ∑ R : Fin 262144, mfRow (row21 x1 R) := by
  rw [val_main_v36_apply, val_main_cst_10_apply, Ideal.ofBits_def, Ideal.ofBits_zero_f32, zero_add]
  refine (sum_idx3_rows _).trans (Finset.sum_congr rfl fun R _ => ?_)
  unfold mfRow
  exact Finset.sum_congr rfl fun j _ => v35_at x1 (rowB R) (rowN R) j

/-! ## The reference's value is the specification -/

theorem ref_loss (x0 x2 : (⟨Cert.ReferenceIdeal.S8x32768x84, .f32⟩ : BufTy).Contents (Elt Ideal)) (x1 x3 : (⟨Cert.ReferenceIdeal.S8x32768x21, .f32⟩ : BufTy).Contents (Elt Ideal)) (i : Cert.ReferenceIdeal.S_.Idx) :
    Cert.ReferenceIdeal.Read.val_main_v40 (F := Ideal) x0 x1 x2 x3 i = Cert.Spec.loss x0 x1 x2 x3 := by
  rw [val_main_v40_apply, val_main_v12_apply, val_main_v39_apply, val_main_v37_apply, v11_at, v36_at, v38_at,
    val_main_cst_4_apply, val_main_cst_11_apply]
  rfl

end Cert.RefSide

end
-- ==== Proof.lean ====
/-
  The detection loss of a batch of region proposals — the mean softmax cross-entropy of the clipped, renormalised class
  scores plus the smooth-L1 of the foreground-masked box deltas over a floor-count denominator — computed by a kernel
  that walks the 262144 flattened rows in 128 blocks of 2048, keeping three running totals, against the same loss
  written with whole-array operations.

  On the extended reals the two agree: each total is a sum of one term per row, and a sum over the rows taken block
  after block is the sum over all rows (addition is commutative and associative, infinities included); the kernel's
  mask, a product of the 0/1 foreground indicators with a constant 0/1 table that repeats each of them four times,
  is the reference's four-fold repeat, because every extended real times zero is zero and times one is itself. No
  finiteness of the inputs is needed. The kernel's idealization rewrote nothing, so it is the program's own text.

  The frames of the two kernel programs are the generated ones; the reference's frame is its generated run.
-/
import proofs.«177230_j87917980549798_1_alg».proof.Defs
import proofs.«177230_j87917980549798_1_alg».proof.Proof.Gen.Kernel
import proofs.«177230_j87917980549798_1_alg».proof.Proof.Gen.Kernel.Skeleton
import proofs.«177230_j87917980549798_1_alg».proof.Proof.Gen.Kernel.Launch
import proofs.«177230_j87917980549798_1_alg».proof.Proof.Gen.Kernel.Points
import proofs.«177230_j87917980549798_1_alg».proof.Proof.Gen.Kernel.Frame
import proofs.«177230_j87917980549798_1_alg».proof.Proof.Gen.KernelIdeal
import proofs.«177230_j87917980549798_1_alg».proof.Proof.Gen.KernelIdeal.Skeleton
import proofs.«177230_j87917980549798_1_alg».proof.Proof.Gen.KernelIdeal.Launch
import proofs.«177230_j87917980549798_1_alg».proof.Proof.Gen.KernelIdeal.Points
import proofs.«177230_j87917980549798_1_alg».proof.Proof.Gen.KernelIdeal.Frame
import proofs.«177230_j87917980549798_1_alg».proof.Proof.Gen.ReferenceIdeal
import proofs.«177230_j87917980549798_1_alg».proof.Proof.Gen.Pre_finite_inputs
import proofs.«177230_j87917980549798_1_alg».proof.Proof.Gen.ReferenceIdeal.Read
import proofs.«177230_j87917980549798_1_alg».proof.Proof.KernelRun
import proofs.«177230_j87917980549798_1_alg».proof.Proof.RefSide
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the loss of the (agreeing) argument arrays as their scalar result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun _ => Cert.KernelIdeal.RunValue.lossAt m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  funext i
  exact Cert.RefSide.ref_loss _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
